-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S4x1600000 : Shape := ⟨2, ![4, 1600000]⟩
abbrev S4x64x64 : Shape := ⟨3, ![4, 64, 64]⟩
abbrev S4x64 : Shape := ⟨2, ![4, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S4x1600000 : S_.BroadcastsInDim S4x1600000 (![] : Fin 0 → Fin S4x1600000.rank)
  reducesTo_S4x1600000_S_d0_1 : S4x1600000.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  main_v18

def fn {F : FTy → Type} [FloatOps F] (main_arg0 : FVec F S100000x64 .f32) (main_arg1 : IVec S4x1600000 32) (main_arg2 : IVec S4x1600000 32) (main_arg3 : FVec F S4x1600000 .f32) (main_arg4 : FVec F S4x64x64 .f32) (main_arg5 : FVec F S4x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S4x1600000 .f32 := Host.absf main_arg3
  let main_cst_0 : FVec F S_ .f32 := constant S_ .f32 0x7F800000#32
  let main_v5 : FVec F S4x1600000 .f32 := broadcastInDim S4x1600000 ![] bcast_S_S4x1600000 main_cst_0
  let main_v6 : IVec S4x1600000 1 := cmpf .olt main_v4 main_v5
  let main_c_1 : IVec S_ 1 := constantI S_ 1 1#1
  let main_v7 : IVec S_ 1 := (fun x v => Host.reduce IntOp.andi x v reducesTo_S4x1600000_S_d0_1 h_S_) main_v6 main_c_1
  let main_v8 : IVec S_ 1 := andi main_v3 main_v7
  let main_v9 : FVec F S4x64x64 .f32 := Host.absf main_arg4
  let main_cst_2 : FVec F S_ .f32 := constant S_ .f32 0x7F800000#32
  let main_v10 : FVec F S4x64x64 .f32 := broadcastInDim S4x64x64 ![] bcast_S_S4x64x64 main_cst_2
  let main_v11 : IVec S4x64x64 1 := cmpf .olt main_v9 main_v10
  let main_c_3 : IVec S_ 1 := constantI S_ 1 1#1
  let main_v12 : IVec S_ 1 := (fun x v => Host.reduce IntOp.andi x v reducesTo_S4x64x64_S_d0_1_2 h_S_) main_v11 main_c_3
  let main_v13 : IVec S_ 1 := andi main_v8 main_v12
  let main_v14 : FVec F S4x64 .f32 := Host.absf main_arg5
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_v13 main_v16
-- ==== Kernel.lean ====
abbrev S100000x64 : Shape := ⟨2, ![100000, 64]⟩
abbrev S4x1600000 : Shape := ⟨2, ![4, 1600000]⟩
abbrev S4x64x64 : Shape := ⟨3, ![4, 64, 64]⟩
abbrev S4x64 : Shape := ⟨2, ![4, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x100000x64 : Shape := ⟨3, ![1, 100000, 64]⟩
abbrev S4x100000x64 : Shape := ⟨3, ![4, 100000, 64]⟩
abbrev S4x5000x64 : Shape := ⟨3, ![4, 5000, 64]⟩
abbrev S5000x64 : Shape := ⟨2, ![5000, 64]⟩
abbrev S1x5000x64 : Shape := ⟨3, ![1, 5000, 64]⟩
abbrev S1x64x64 : Shape := ⟨3, ![1, 64, 64]⟩
abbrev S64x64 : Shape := ⟨2, ![64, 64]⟩
abbrev S64 : Shape := ⟨1, ![64]⟩
abbrev S1x64 : Shape := ⟨2, ![1, 64]⟩

abbrev nBuf : Space → Nat
  | .hbm => 100
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S4x1600000, .i32⟩
  | .hbm, ⟨2, _⟩ => ⟨S4x1600000, .i32⟩
  | .hbm, ⟨3, _⟩ => ⟨S4x1600000, .f32⟩
  | .hbm, ⟨4, _⟩ => ⟨S4x64x64, .f32⟩
  | .hbm, ⟨5, _⟩ => ⟨S4x64, .f32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1x1600000, .f32⟩
  | .hbm, ⟨18, _⟩ => ⟨S1600000, .f32⟩
  | .hbm, ⟨19, _⟩ => ⟨S1600000x1, .f32⟩
  | .hbm, ⟨20, _⟩ => ⟨S1600000x64, .f32⟩
  | .hbm, ⟨21, _⟩ => ⟨S1600000x64, .f32⟩
  | .hbm, ⟨22, _⟩ => ⟨S1x1600000, .i32⟩
  | .hbm, ⟨23, _⟩ => ⟨S1600000, .i32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S1x1600000, .i32⟩
  | .hbm, ⟨29, _⟩ => ⟨S1600000, .i32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S1x1600000, .f32⟩
  | .hbm, ⟨40, _⟩ => ⟨S1600000, .f32⟩
  | .hbm, ⟨41, _⟩ => ⟨S1600000x1, .f32⟩
  | .hbm, ⟨42, _⟩ => ⟨S1600000x64, .f32⟩
  | .hbm, ⟨43, _⟩ => ⟨S1600000x64, .f32⟩
  | .hbm, ⟨44, _⟩ => ⟨S1x1600000, .i32⟩
  | .hbm, ⟨45, _⟩ => ⟨S1600000, .i32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S1x1600000, .i32⟩
  | .hbm, ⟨51, _⟩ => ⟨S1600000, .i32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x64, .f32⟩
  | .hbm, ⟨61, _⟩ => ⟨S1x1600000, .f32⟩
  | .hbm, ⟨62, _⟩ => ⟨S1600000, .f32⟩
  | .hbm, ⟨63, _⟩ => ⟨S1600000x1, .f32⟩
  | .hbm, ⟨64, _⟩ => ⟨S1600000x64, .f32⟩
  | .hbm, ⟨65, _⟩ => ⟨S1600000x64, .f32⟩
  | .hbm, ⟨66, _⟩ => ⟨S1x1600000, .i32⟩
  | .hbm, ⟨67, _⟩ => ⟨S1600000, .i32⟩
  | .hbm, ⟨68, _⟩ => ⟨S_, .f32⟩
  | .hbm, ⟨69, _⟩ => ⟨S100000x64, .f32⟩
  | .hbm, ⟨70, _⟩ => ⟨S1600000x1, .i32⟩
  | .hbm, ⟨71, _⟩ => ⟨S100000x64, .f32⟩
  | .hbm, ⟨72, _⟩ => ⟨S1x1600000, .i32⟩
  | .hbm, ⟨73, _⟩ => ⟨S1600000, .i32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x64, .f32⟩
  | .hbm, ⟨83, _⟩ => ⟨S1x1600000, .f32⟩
  | .hbm, ⟨84, _⟩ => ⟨S1600000, .f32⟩
  | .hbm, ⟨85, _⟩ => ⟨S1600000x1, .f32⟩
  | .hbm, ⟨86, _⟩ => ⟨S1600000x64, .f32⟩
  | .hbm, ⟨87, _⟩ => ⟨S1600000x64, .f32⟩
  | .hbm, ⟨88, _⟩ => ⟨S1x1600000, .i32⟩
  | .hbm, ⟨89, _⟩ => ⟨S1600000, .i32⟩
  | .hbm, ⟨90, _⟩ => ⟨S_, .f32⟩
  | .hbm, ⟨91, _⟩ => ⟨S100000x64, .f32⟩
  | .hbm, ⟨92, _⟩ => ⟨S1600000x1, .i32⟩
  | .hbm, ⟨93, _⟩ => ⟨S100000x64, .f32⟩
  | .hbm, ⟨94, _⟩ => ⟨S1x100000x64, .f32⟩
  | .hbm, ⟨95, _⟩ => ⟨S1x100000x64, .f32⟩
  | .hbm, ⟨96, _⟩ => ⟨S1x100000x64, .f32⟩
  | .hbm, ⟨97, _⟩ => ⟨S1x100000x64, .f32⟩
  | .hbm, ⟨98, _⟩ => ⟨S4x100000x64, .f32⟩
  | .hbm, ⟨99, _⟩ => ⟨S100000x64, .f32⟩
  | .local _ .vmem, ⟨0, _⟩ => ⟨S4x5000x64, .f32⟩
  | .local _ .vmem, ⟨1, _⟩ => ⟨S4x5000x64, .f32⟩
  | .local _ .vmem, ⟨2, _⟩ => ⟨S4x64x64, .f32⟩
  | .local _ .vmem, ⟨3, _⟩ => ⟨S4x64, .f32⟩
  | .local _ .vmem, ⟨4, _⟩ => ⟨S5000x64, .f32⟩
  | .local _ .vmem, ⟨5, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_1 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_4 : Ref sig .tc := ⟨.hbm, 52, rfl⟩
abbrev main_v40 : Ref sig .tc := ⟨.hbm, 53, rfl⟩
abbrev main_v41 : Ref sig .tc := ⟨.hbm, 54, rfl⟩
abbrev main_c_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_c_7 : Ref sig .tc := ⟨.hbm, 74, rfl⟩
abbrev main_v59 : Ref sig .tc := ⟨.hbm, 75, rfl⟩
abbrev main_v60 : Ref sig .tc := ⟨.hbm, 76, rfl⟩
abbrev main_c_8 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_9 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S4x1600000_S1x1600000_0_0 : S4x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S4x1600000_S1x1600000_1_0 : S4x1600000.Slices ![1, 0] S1x1600000
  slices_S4x1600000_S1x1600000_2_0 : S4x1600000.Slices ![2, 0] S1x1600000
  slices_S4x1600000_S1x1600000_3_0 : S4x1600000.Slices ![3, 0] S1x1600000
  bcast_S100000x64_S1x100000x64_1_2 : S100000x64.BroadcastsInDim S1x100000x64 (![1, 2] : Fin 2 → Fin S1x100000x64.rank)
  concatenates_S1x100000x64_S1x100000x64_S1x100000x64_S1x100000x64_S4x100000x64_d0 : Shape.Concatenates [S1x100000x64, S1x100000x64, S1x100000x64, S1x100000x64] S4x100000x64 0
  inb_S4x5000x64_S1x5000x64_0_0_0 : ∀ a, (![0, 0, 0] : Fin 3 → Nat) a + S1x5000x64.size a ≤ S4x5000x64.size a
  h_S1x5000x64 : 0 < S1x5000x64.numel
  shapeCasts_S1x5000x64_S5000x64 : S1x5000x64.ShapeCasts S5000x64
  bitsLt_bf16_f32 : FTy.bits .bf16 < FTy.bits .f32
  inb_S4x64x64_S1x64x64_0_0_0 : ∀ a, (![0, 0, 0] : Fin 3 → Nat) a + S1x64x64.size a ≤ S4x64x64.size a
  h_S1x64x64 : 0 < S1x64x64.numel
  shapeCasts_S1x64x64_S64x64 : S1x64x64.ShapeCasts S64x64
  inb_S4x5000x64_S1x5000x64_1_0_0 : ∀ a, (![1, 0, 0] : Fin 3 → Nat) a + S1x5000x64.size a ≤ S4x5000x64.size a
  inb_S4x64x64_S1x64x64_1_0_0 : ∀ a, (![1, 0, 0] : Fin 3 → Nat) a + S1x64x64.size a ≤ S4x64x64.size a
  inb_S4x5000x64_S1x5000x64_2_0_0 : ∀ a, (![2, 0, 0] : Fin 3 → Nat) a + S1x5000x64.size a ≤ S4x5000x64.size a
  inb_S4x64x64_S1x64x64_2_0_0 : ∀ a, (![2, 0, 0] : Fin 3 → Nat) a + S1x64x64.size a ≤ S4x64x64.size a
  inb_S4x5000x64_S1x5000x64_3_0_0 : ∀ a, (![3, 0, 0] : Fin 3 → Nat) a + S1x5000x64.size a ≤ S4x5000x64.size a
  inb_S4x64x64_S1x64x64_3_0_0 : ∀ a, (![3, 0, 0] : Fin 3 → Nat) a + S1x64x64.size a ≤ S4x64x64.size a
  inb_S4x64_S4x64_0_0 : ∀ a, (![0, 0] : Fin 2 → Nat) a + S4x64.size a ≤ S4x64.size a
  h_S4x64 : 0 < S4x64.numel
  reduces_S4x64_S64 : S4x64.Reduces [0] S64
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x5000x64.size a ≤ S4x100000x64.size a
  hwx0_0 : ∀ i : grid0.Coords, EltTy.bits .f32 = 32 ∨ (Rect.block (s := S4x100000x64) S4x5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64x64.size a ≤ S4x64x64.size a
  hwx0_1 : ∀ i : grid0.Coords, EltTy.bits .f32 = 32 ∨ (Rect.block (s := S4x64x64) S4x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64.size a ≤ S4x64.size a
  hwx0_2 : ∀ i : grid0.Coords, EltTy.bits .f32 = 32 ∨ (Rect.block (s := S4x64) S4x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v80) S4x5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S4x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S4x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v81) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S4x1600000 : Shape := ⟨2, ![4, 1600000]⟩
abbrev S4x64x64 : Shape := ⟨3, ![4, 64, 64]⟩
abbrev S4x64 : Shape := ⟨2, ![4, 64]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S64 : Shape := ⟨1, ![64]⟩
abbrev S1x64 : Shape := ⟨2, ![1, 64]⟩

abbrev nBuf : Space → Nat
  | .hbm => 117
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S4x1600000, .i32⟩
  | .hbm, ⟨2, _⟩ => ⟨S4x1600000, .i32⟩
  | .hbm, ⟨3, _⟩ => ⟨S4x1600000, .f32⟩
  | .hbm, ⟨4, _⟩ => ⟨S4x64x64, .f32⟩
  | .hbm, ⟨5, _⟩ => ⟨S4x64, .f32⟩
  | .hbm, ⟨6, _⟩ => ⟨S_, .f32⟩
  | .hbm, ⟨7, _⟩ => ⟨S100000x64, .f32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S1x1600000, .f32⟩
  | .hbm, ⟨20, _⟩ => ⟨S1600000, .f32⟩
  | .hbm, ⟨21, _⟩ => ⟨S1600000x1, .f32⟩
  | .hbm, ⟨22, _⟩ => ⟨S1600000x64, .f32⟩
  | .hbm, ⟨23, _⟩ => ⟨S1600000x64, .f32⟩
  | .hbm, ⟨24, _⟩ => ⟨S1x1600000, .i32⟩
  | .hbm, ⟨25, _⟩ => ⟨S1600000, .i32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S1x64x64, .f32⟩
  | .hbm, ⟨31, _⟩ => ⟨S64x64, .f32⟩
  | .hbm, ⟨32, _⟩ => ⟨S100000x64, .f32⟩
  | .hbm, ⟨33, _⟩ => ⟨S100000x64, .f32⟩
  | .hbm, ⟨34, _⟩ => ⟨S1x1600000, .i32⟩
  | .hbm, ⟨35, _⟩ => ⟨S1600000, .i32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S1x1600000, .f32⟩
  | .hbm, ⟨46, _⟩ => ⟨S1600000, .f32⟩
  | .hbm, ⟨47, _⟩ => ⟨S1600000x1, .f32⟩
  | .hbm, ⟨48, _⟩ => ⟨S1600000x64, .f32⟩
  | .hbm, ⟨49, _⟩ => ⟨S1600000x64, .f32⟩
  | .hbm, ⟨50, _⟩ => ⟨S1x1600000, .i32⟩
  | .hbm, ⟨51, _⟩ => ⟨S1600000, .i32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S1x64x64, .f32⟩
  | .hbm, ⟨57, _⟩ => ⟨S64x64, .f32⟩
  | .hbm, ⟨58, _⟩ => ⟨S100000x64, .f32⟩
  | .hbm, ⟨59, _⟩ => ⟨S100000x64, .f32⟩
  | .hbm, ⟨60, _⟩ => ⟨S1x1600000, .i32⟩
  | .hbm, ⟨61, _⟩ => ⟨S1600000, .i32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x64, .f32⟩
  | .hbm, ⟨71, _⟩ => ⟨S1x1600000, .f32⟩
  | .hbm, ⟨72, _⟩ => ⟨S1600000, .f32⟩
  | .hbm, ⟨73, _⟩ => ⟨S1600000x1, .f32⟩
  | .hbm, ⟨74, _⟩ => ⟨S1600000x64, .f32⟩
  | .hbm, ⟨75, _⟩ => ⟨S1600000x64, .f32⟩
  | .hbm, ⟨76, _⟩ => ⟨S1x1600000, .i32⟩
  | .hbm, ⟨77, _⟩ => ⟨S1600000, .i32⟩
  | .hbm, ⟨78, _⟩ => ⟨S_, .f32⟩
  | .hbm, ⟨79, _⟩ => ⟨S100000x64, .f32⟩
  | .hbm, ⟨80, _⟩ => ⟨S1600000x1, .i32⟩
  | .hbm, ⟨81, _⟩ => ⟨S100000x64, .f32⟩
  | .hbm, ⟨82, _⟩ => ⟨S1x64x64, .f32⟩
  | .hbm, ⟨83, _⟩ => ⟨S64x64, .f32⟩
  | .hbm, ⟨84, _⟩ => ⟨S100000x64, .f32⟩
  | .hbm, ⟨85, _⟩ => ⟨S100000x64, .f32⟩
  | .hbm, ⟨86, _⟩ => ⟨S1x1600000, .i32⟩
  | .hbm, ⟨87, _⟩ => ⟨S1600000, .i32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x64, .f32⟩
  | .hbm, ⟨97, _⟩ => ⟨S1x1600000, .f32⟩
  | .hbm, ⟨98, _⟩ => ⟨S1600000, .f32⟩
  | .hbm, ⟨99, _⟩ => ⟨S1600000x1, .f32⟩
  | .hbm, ⟨100, _⟩ => ⟨S1600000x64, .f32⟩
  | .hbm, ⟨101, _⟩ => ⟨S1600000x64, .f32⟩
  | .hbm, ⟨102, _⟩ => ⟨S1x1600000, .i32⟩
  | .hbm, ⟨103, _⟩ => ⟨S1600000, .i32⟩
  | .hbm, ⟨104, _⟩ => ⟨S_, .f32⟩
  | .hbm, ⟨105, _⟩ => ⟨S100000x64, .f32⟩
  | .hbm, ⟨106, _⟩ => ⟨S1600000x1, .i32⟩
  | .hbm, ⟨107, _⟩ => ⟨S100000x64, .f32⟩
  | .hbm, ⟨108, _⟩ => ⟨S1x64x64, .f32⟩
  | .hbm, ⟨109, _⟩ => ⟨S64x64, .f32⟩
  | .hbm, ⟨110, _⟩ => ⟨S100000x64, .f32⟩
  | .hbm, ⟨111, _⟩ => ⟨S100000x64, .f32⟩
  | .hbm, ⟨112, _⟩ => ⟨S_, .f32⟩
  | .hbm, ⟨113, _⟩ => ⟨S64, .f32⟩
  | .hbm, ⟨114, _⟩ => ⟨S1x64, .f32⟩
  | .hbm, ⟨115, _⟩ => ⟨S100000x64, .f32⟩
  | .hbm, ⟨116, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_2 : Ref sig .tc := ⟨.hbm, 36, rfl⟩
abbrev main_v26 : Ref sig .tc := ⟨.hbm, 37, rfl⟩
abbrev main_v27 : Ref sig .tc := ⟨.hbm, 38, rfl⟩
abbrev main_c_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_5 : Ref sig .tc := ⟨.hbm, 62, rfl⟩
abbrev main_v49 : Ref sig .tc := ⟨.hbm, 63, rfl⟩
abbrev main_v50 : Ref sig .tc := ⟨.hbm, 64, rfl⟩
abbrev main_c_6 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_7 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_c_8 : Ref sig .tc := ⟨.hbm, 88, rfl⟩
abbrev main_v72 : Ref sig .tc := ⟨.hbm, 89, rfl⟩
abbrev main_v73 : Ref sig .tc := ⟨.hbm, 90, rfl⟩
abbrev main_c_9 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_10 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_cst_11 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩

abbrev nD : Nat := 1
abbrev τ : Topo := Topo.v7x

variable {F : FTy → Type} [FloatOps F]

class Facts₀ : Prop where
  bcast_S_S100000x64 : S_.BroadcastsInDim S100000x64 (![] : Fin 0 → Fin S100000x64.rank)
  slices_S4x1600000_S1x1600000_0_0 : S4x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  slices_S4x64x64_S1x64x64_0_0_0 : S4x64x64.Slices ![0, 0, 0] S1x64x64
  shapeCasts_S1x64x64_S64x64 : S1x64x64.ShapeCasts S64x64
  slices_S4x1600000_S1x1600000_1_0 : S4x1600000.Slices ![1, 0] S1x1600000
  slices_S4x64x64_S1x64x64_1_0_0 : S4x64x64.Slices ![1, 0, 0] S1x64x64
  slices_S4x1600000_S1x1600000_2_0 : S4x1600000.Slices ![2, 0] S1x1600000
  slices_S4x64x64_S1x64x64_2_0_0 : S4x64x64.Slices ![2, 0, 0] S1x64x64
  slices_S4x1600000_S1x1600000_3_0 : S4x1600000.Slices ![3, 0] S1x1600000
  slices_S4x64x64_S1x64x64_3_0_0 : S4x64x64.Slices ![3, 0, 0] S1x64x64
  reducesTo_S4x64_S64_d0 : S4x64.ReducesTo [0] S64
  h_S_ : 0 < S_.numel
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.BitsEntry.lean ====
/-
  The device's buffers when the region is entered.

  Before its one region the program runs 93 host lines: for each of the four relations the gather of the source
  rows, their scaling by the edge values and the scatter-add onto the destination rows, then the four aggregates
  laid side by side as one [4, 100000, 64] array. `V` is what every buffer holds after those lines; `entry` says
  the program is those lines followed by the region; and no line writes an argument array, so each argument is
  found as launched (`kept_arg0` … `kept_arg5`). All of it holds at every float instance.
-/
import proofs.«101282_j25907242729954_1_alg».proof.Proof.Gen.Kernel.Launch
import Idealize.ShloMosaic.Lib.Pipeline.FrameBody

set_option maxRecDepth 16384

noncomputable section

namespace Cert.Kernel.Entry

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

variable (m : (ℓ : Loc nD τ sig) → Buf (Elt F) ℓ)

/-- Core `c`'s buffers when the region is entered: after the 93 host lines, from the launch contents. -/
abbrev V (c : Dev nD) (b : Ref sig .tc) : Buf (Elt F) ((c : Thread nD τ).loc b) :=
  StableHlo.after hostOps0 (fun b => m (c, b)) b

set_option maxHeartbeats 40000000 in
/-- No host line allocates. -/
theorem lines_fresh : (hostOps0 : List (HloOp τ sig (Elt F))).Forall fun op => op.fresh = ∅ := by
  simp only [List.Forall]; repeat' constructor

/-- The program is the host lines, then the region: holding the unscoped buffers at the launch contents it reaches
    the region holding them at `V`. -/
theorem entry (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub lines_fresh main_chain

set_option maxHeartbeats 40000000 in
/-- No host line before the region writes argument 0: the region finds it as launched. -/
theorem kept_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 40000000 in
/-- No host line before the region writes argument 1: the region finds it as launched. -/
theorem kept_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 40000000 in
/-- No host line before the region writes argument 2: the region finds it as launched. -/
theorem kept_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 40000000 in
/-- No host line before the region writes argument 3: the region finds it as launched. -/
theorem kept_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 40000000 in
/-- No host line before the region writes argument 4: the region finds it as launched. -/
theorem kept_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 40000000 in
/-- No host line before the region writes argument 5: the region finds it as launched. -/
theorem kept_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

end Cert.Kernel.Entry

end
-- ==== Proof.BitsPoint.lean ====
/-
  One grid point of the reduction kernel, as a function of the blocks it is handed.

  The body reads, for each of the four relations r, the r-th 5000×64 slab of the aggregate block and the r-th 64×64
  weight matrix, multiplies them, and adds the four products in order onto a zero block; it then adds the column
  sums of the 4×64 bias block to every row and stores the result over the whole 5000×64 output block. The output
  buffer is also read once before the store, and that value is not used.

  `blockOut` names what the output buffer holds afterwards: one store covering the block, its value the payload
  of the four slab/weight loads and the bias load. `body_run` says the body, started with the three input buffers
  whole at known contents and the output buffer whole at any contents, ends with the inputs unchanged and the
  output at `blockOut`. It holds at every float instance.
-/
import proofs.«101282_j25907242729954_1_alg».proof.Proof.Gen.Kernel.Launch
import proofs.«101282_j25907242729954_1_alg».proof.Proof.Gen.Kernel.Skeleton
import proofs.«101282_j25907242729954_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body reads and writes -/

/-- Slab r of the aggregate block: all rows and lanes of relation r. -/
abbrev slab0 : Rect S4x5000x64 := Rect.unit (s := S4x5000x64) ![0, 0, 0] S1x5000x64.size inb_S4x5000x64_S1x5000x64_0_0_0
abbrev slab1 : Rect S4x5000x64 := Rect.unit (s := S4x5000x64) ![1, 0, 0] S1x5000x64.size inb_S4x5000x64_S1x5000x64_1_0_0
abbrev slab2 : Rect S4x5000x64 := Rect.unit (s := S4x5000x64) ![2, 0, 0] S1x5000x64.size inb_S4x5000x64_S1x5000x64_2_0_0
abbrev slab3 : Rect S4x5000x64 := Rect.unit (s := S4x5000x64) ![3, 0, 0] S1x5000x64.size inb_S4x5000x64_S1x5000x64_3_0_0
/-- The weight matrix of relation r. -/
abbrev wmat0 : Rect S4x64x64 := Rect.unit (s := S4x64x64) ![0, 0, 0] S1x64x64.size inb_S4x64x64_S1x64x64_0_0_0
abbrev wmat1 : Rect S4x64x64 := Rect.unit (s := S4x64x64) ![1, 0, 0] S1x64x64.size inb_S4x64x64_S1x64x64_1_0_0
abbrev wmat2 : Rect S4x64x64 := Rect.unit (s := S4x64x64) ![2, 0, 0] S1x64x64.size inb_S4x64x64_S1x64x64_2_0_0
abbrev wmat3 : Rect S4x64x64 := Rect.unit (s := S4x64x64) ![3, 0, 0] S1x64x64.size inb_S4x64x64_S1x64x64_3_0_0
/-- The whole bias block and the whole output block. -/
abbrev biasAll : Rect S4x64 := Rect.unit (s := S4x64) ![0, 0] S4x64.size inb_S4x64_S4x64_0_0
abbrev outAll : Rect S5000x64 := Rect.unit (s := S5000x64) ![0, 0] S5000x64.size inb_S5000x64_S5000x64_0_0

/-! ## What the body leaves in the output block -/

/-- The output block after the body, from the three input blocks: the one store, over the whole block, of the sum of
    the four slab-by-weight products and the bias columns' sums. -/
def blockOut (x0 : Vec F S4x5000x64 .f32) (x1 : Vec F S4x64x64 .f32) (x2 : Vec F S4x64 .f32) : Vec F S5000x64 .f32 :=
  View.canon [⟨outAll, k0_pay1
    (k0_pay2 (View.ld x0 slab0) (View.ld x1 wmat0) (View.ld x0 slab1) (View.ld x1 wmat1) (View.ld x0 slab2) (View.ld x1 wmat2))
    (k0_pay3 (View.ld x0 slab3)) (k0_pay4 (View.ld x1 wmat3)) (View.ld x2 biasAll)⟩]

/-- The one store is over the whole block, so every element of the block is written. -/
theorem store_covers (p0 : Vec F S5000x64 .f32) (y : S5000x64.Idx) :
    ∃ pc ∈ ([⟨outAll, p0⟩] : List (View.Piece (Elt F) S5000x64 .f32)), y ∈ pc.1.set :=
  View.cover_of_tiled [⟨outAll, p0⟩] S5000x64.size (by rfl) y

/-! ## The body's run -/

set_option maxHeartbeats 4000000 in
/-- The body on whole buffers — the aggregate, weight and bias blocks at contents `x0`, `x1`, `x2`, the output
    block at anything — reaches its continuation with the three inputs as they were and the output at `blockOut`. -/
theorem body_run (c : Dev nD) (E : Set ℕ) (i : grid0.Coords)
    (arg1 : Memref sig .tc .vmem S4x5000x64 .f32) (harg1 : arg1.IsWhole) (arg2 : Memref sig .tc .vmem S4x64x64 .f32) (harg2 : arg2.IsWhole)
    (arg3 : Memref sig .tc .vmem S4x64 .f32) (harg3 : arg3.IsWhole) (arg4 : Memref sig .tc .vmem S5000x64 .f32) (harg4 : arg4.IsWhole)
    (x0 : Vec F S4x5000x64 .f32) (x1 : Vec F S4x64x64 .f32) (x2 : Vec F S4x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (blockOut x0 x1 x2)) -∗ K ⟨⟩))
      ⊢ wp frame (wpE (defs₀ (F := F)) Variants.none c none) E (cc0__gcn_reduce_kernel i arg1 harg1 arg2 harg2 arg3 harg3 arg4 harg4) K := by
  simp only [cc0__gcn_reduce_kernel_eq_skeleton]; unfold cc0__gcn_reduce_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

end Cert.Kernel.Point

end
-- ==== Proof.BitsRegion.lean ====
/-
  The region's run, and the frame.

  The pipeline hands the body, at each of the 20 grid points, the blocks of its three input arrays — rows
  5000·t … 5000·t + 4999 of every relation's aggregate, all the weights, all the biases — and writes the output
  block back to rows 5000·t … of the result. `iblk` names a window's block at a point, read off its array as the
  region finds it. The proof data say: after the body each input buffer still holds its block and the output buffer
  holds `Point.blockOut` of the three input blocks; nothing else is used. With the body's run at every point
  (`body_at`) the library's frame run applies (`run`): every execution terminates, every window's array ends at
  what the library computes from the proof data, every other unscoped buffer as the region found it. The frame
  (`frame`) reads the six arguments off that: four of them no window touches, two are input windows' arrays.
  All of it holds at every float instance.
-/
import proofs.«101282_j25907242729954_1_alg».proof.Proof.BitsEntry
import proofs.«101282_j25907242729954_1_alg».proof.Proof.BitsPoint

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Entry Cert.Kernel.Point

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- On core `c`: the arrays as the region finds them; after the body at point `t` each input's buffer at its block
    and the output's at `blockOut` of the input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut (iblk m c 0 t) (iblk m c 1 t) (iblk m c 2 t)
  Φ _ := Pipeline.ΦA spec0 c
  q _ := fullShare
  owed _ := 0

/-- The proof data's arrays are the region-entry contents. -/
theorem arrays_eq (c : Dev nD) (w : Fin cfg0.W) : (dats m 0 c).A w = V m c (Pipeline.arrRef spec0 w) := by
  dsimp only [dats]

/-- What the body leaves, window by window. -/
theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) :
    (dats m 0 c).after 3 t = blockOut (iblk m c 0 t) (iblk m c 1 t) (iblk m c 2 t) := by dsimp only [dats]

/-- Input window 0's current buffer holds its block at every point, fetched there or not: unfetched, its block index
    has not moved. -/
theorem found0 (c : Dev nD) (t : Fin cfg0.N) (d) : (dats m 0 c).before 0 t d = iblk m c 0 t :=
  ((dats m 0 c).before_in_eq_fetched 0 rfl (fun _ => rfl) (fun _ _ _ => rfl)
      (fun t => by rw [left0]; unfold Dat.blockOf iblk; rw [arrays_eq]; try rfl) t d).trans
    (by unfold Dat.fetched Dat.blockOf iblk; rw [arrays_eq]; try rfl)
/-- Input window 1's current buffer holds its block at every point, fetched there or not: unfetched, its block index
    has not moved. -/
theorem found1 (c : Dev nD) (t : Fin cfg0.N) (d) : (dats m 0 c).before 1 t d = iblk m c 1 t :=
  ((dats m 0 c).before_in_eq_fetched 1 rfl (fun _ => rfl) (fun _ _ _ => rfl)
      (fun t => by rw [left1]; unfold Dat.blockOf iblk; rw [arrays_eq]; try rfl) t d).trans
    (by unfold Dat.fetched Dat.blockOf iblk; rw [arrays_eq]; try rfl)
/-- Input window 2's current buffer holds its block at every point, fetched there or not: unfetched, its block index
    has not moved. -/
theorem found2 (c : Dev nD) (t : Fin cfg0.N) (d) : (dats m 0 c).before 2 t d = iblk m c 2 t :=
  ((dats m 0 c).before_in_eq_fetched 2 rfl (fun _ => rfl) (fun _ _ _ => rfl)
      (fun t => by rw [left2]; unfold Dat.blockOf iblk; rw [arrays_eq]; try rfl) t d).trans
    (by unfold Dat.fetched Dat.blockOf iblk; rw [arrays_eq]; try rfl)

/-! ## The body at a point -/

/-- What the body is called with at point `t`, the windows one by one, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's run applies; the invariant and the
    core's debts pass through unread. -/
theorem body_at (c : Dev nD) (t : Fin cfg0.N) :
    pointPre m c t ⊢ wp frame (wpE (defs₀ (F := F)) Variants.none c none) Set.univ (bodyAt0 t) (fun _ => pointPost m c t) := by
  unfold pointPre pointPost bodyAt0
  simp only [found0, found1, found2]
  rw [show (dats m 0 c).Φ t.succ = (dats m 0 c).Φ t.castSucc from rfl,
    show (dats m 0 c).owesAt () t.succ = (dats m 0 c).owesAt () t.castSucc from rfl,
    left0, left1, left2, left3]
  iintro ⟨HΦ, Ho, ⟨%d0, H0⟩, ⟨%d1, H1⟩, ⟨%d2, H2⟩, ⟨%d3, H3⟩⟩
  iapply (body_run c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of the program terminates, and every final state
    has every window's array at what the library computes from the proof data and every other unscoped buffer as the
    region found it. -/
theorem run : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := entry m Variants.none) (hA := arrays_eq m) (hΦ := fun _ _ => rfl)

/-- The frame: the program runs to the end and its six argument arrays end as launched. Arguments 0–3 are buffers no
    window touches; arguments 4 and 5 are the arrays of input windows 1 and 2. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (kept_arg0 m c),
     ((h c).2 main_arg1 (Pipeline.mem_restRefs_of main_arg1 (by decide) (by decide))).trans (kept_arg1 m c),
     ((h c).2 main_arg2 (Pipeline.mem_restRefs_of main_arg2 (by decide) (by decide))).trans (kept_arg2 m c),
     ((h c).2 main_arg3 (Pipeline.mem_restRefs_of main_arg3 (by decide) (by decide))).trans (kept_arg3 m c),
     ((h c).1 1).trans (((dats m 0 c).arrAt_in 1 rfl _).trans ((arrays_eq m c 1).trans (kept_arg4 m c))),
     ((h c).1 2).trans (((dats m 0 c).arrAt_in 2 rfl _).trans ((arrays_eq m c 2).trans (kept_arg5 m c)))⟩) (run m ρ)

end Cert.Kernel.Region

end
-- ==== Proof.IdealEntry.lean ====
/-
  The device's buffers when the region is entered.

  Before its one region the program runs 93 host lines: for each of the four relations the gather of the source
  rows, their scaling by the edge values and the scatter-add onto the destination rows, then the four aggregates
  laid side by side as one [4, 100000, 64] array. `V` is what every buffer holds after those lines; `entry` says
  the program is those lines followed by the region; and no line writes an argument array, so each argument is
  found as launched (`kept_arg0` … `kept_arg5`). All of it holds at every float instance.
-/
import proofs.«101282_j25907242729954_1_alg».proof.Proof.Gen.KernelIdeal.Launch
import Idealize.ShloMosaic.Lib.Pipeline.FrameBody

set_option maxRecDepth 16384

noncomputable section

namespace Cert.KernelIdeal.Entry

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

variable (m : (ℓ : Loc nD τ sig) → Buf (Elt F) ℓ)

/-- Core `c`'s buffers when the region is entered: after the 93 host lines, from the launch contents. -/
abbrev V (c : Dev nD) (b : Ref sig .tc) : Buf (Elt F) ((c : Thread nD τ).loc b) :=
  StableHlo.after hostOps0 (fun b => m (c, b)) b

set_option maxHeartbeats 40000000 in
/-- No host line allocates. -/
theorem lines_fresh : (hostOps0 : List (HloOp τ sig (Elt F))).Forall fun op => op.fresh = ∅ := by
  simp only [List.Forall]; repeat' constructor

/-- The program is the host lines, then the region: holding the unscoped buffers at the launch contents it reaches
    the region holding them at `V`. -/
theorem entry (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub lines_fresh main_chain

set_option maxHeartbeats 40000000 in
/-- No host line before the region writes argument 0: the region finds it as launched. -/
theorem kept_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 40000000 in
/-- No host line before the region writes argument 1: the region finds it as launched. -/
theorem kept_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 40000000 in
/-- No host line before the region writes argument 2: the region finds it as launched. -/
theorem kept_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 40000000 in
/-- No host line before the region writes argument 3: the region finds it as launched. -/
theorem kept_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 40000000 in
/-- No host line before the region writes argument 4: the region finds it as launched. -/
theorem kept_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 40000000 in
/-- No host line before the region writes argument 5: the region finds it as launched. -/
theorem kept_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

end Cert.KernelIdeal.Entry

end
-- ==== Proof.IdealPoint.lean ====
/-
  One grid point of the reduction kernel, as a function of the blocks it is handed.

  The body reads, for each of the four relations r, the r-th 5000×64 slab of the aggregate block and the r-th 64×64
  weight matrix, multiplies them, and adds the four products in order onto a zero block; it then adds the column
  sums of the 4×64 bias block to every row and stores the result over the whole 5000×64 output block. The output
  buffer is also read once before the store, and that value is not used.

  `blockOut` names what the output buffer holds afterwards: one store covering the block, its value the payload
  of the four slab/weight loads and the bias load. `body_run` says the body, started with the three input buffers
  whole at known contents and the output buffer whole at any contents, ends with the inputs unchanged and the
  output at `blockOut`. It holds at every float instance.
-/
import proofs.«101282_j25907242729954_1_alg».proof.Proof.Gen.KernelIdeal.Launch
import proofs.«101282_j25907242729954_1_alg».proof.Proof.Gen.KernelIdeal.Skeleton
import proofs.«101282_j25907242729954_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body reads and writes -/

/-- Slab r of the aggregate block: all rows and lanes of relation r. -/
abbrev slab0 : Rect S4x5000x64 := Rect.unit (s := S4x5000x64) ![0, 0, 0] S1x5000x64.size inb_S4x5000x64_S1x5000x64_0_0_0
abbrev slab1 : Rect S4x5000x64 := Rect.unit (s := S4x5000x64) ![1, 0, 0] S1x5000x64.size inb_S4x5000x64_S1x5000x64_1_0_0
abbrev slab2 : Rect S4x5000x64 := Rect.unit (s := S4x5000x64) ![2, 0, 0] S1x5000x64.size inb_S4x5000x64_S1x5000x64_2_0_0
abbrev slab3 : Rect S4x5000x64 := Rect.unit (s := S4x5000x64) ![3, 0, 0] S1x5000x64.size inb_S4x5000x64_S1x5000x64_3_0_0
/-- The weight matrix of relation r. -/
abbrev wmat0 : Rect S4x64x64 := Rect.unit (s := S4x64x64) ![0, 0, 0] S1x64x64.size inb_S4x64x64_S1x64x64_0_0_0
abbrev wmat1 : Rect S4x64x64 := Rect.unit (s := S4x64x64) ![1, 0, 0] S1x64x64.size inb_S4x64x64_S1x64x64_1_0_0
abbrev wmat2 : Rect S4x64x64 := Rect.unit (s := S4x64x64) ![2, 0, 0] S1x64x64.size inb_S4x64x64_S1x64x64_2_0_0
abbrev wmat3 : Rect S4x64x64 := Rect.unit (s := S4x64x64) ![3, 0, 0] S1x64x64.size inb_S4x64x64_S1x64x64_3_0_0
/-- The whole bias block and the whole output block. -/
abbrev biasAll : Rect S4x64 := Rect.unit (s := S4x64) ![0, 0] S4x64.size inb_S4x64_S4x64_0_0
abbrev outAll : Rect S5000x64 := Rect.unit (s := S5000x64) ![0, 0] S5000x64.size inb_S5000x64_S5000x64_0_0

/-! ## What the body leaves in the output block -/

/-- The output block after the body, from the three input blocks: the one store, over the whole block, of the sum of
    the four slab-by-weight products and the bias columns' sums. -/
def blockOut (x0 : Vec F S4x5000x64 .f32) (x1 : Vec F S4x64x64 .f32) (x2 : Vec F S4x64 .f32) : Vec F S5000x64 .f32 :=
  View.canon [⟨outAll, k0_pay1
    (k0_pay2 (View.ld x0 slab0) (View.ld x1 wmat0) (View.ld x0 slab1) (View.ld x1 wmat1) (View.ld x0 slab2) (View.ld x1 wmat2))
    (k0_pay3 (View.ld x0 slab3)) (k0_pay4 (View.ld x1 wmat3)) (View.ld x2 biasAll)⟩]

/-- The one store is over the whole block, so every element of the block is written. -/
theorem store_covers (p0 : Vec F S5000x64 .f32) (y : S5000x64.Idx) :
    ∃ pc ∈ ([⟨outAll, p0⟩] : List (View.Piece (Elt F) S5000x64 .f32)), y ∈ pc.1.set :=
  View.cover_of_tiled [⟨outAll, p0⟩] S5000x64.size (by rfl) y

/-! ## The body's run -/

set_option maxHeartbeats 4000000 in
/-- The body on whole buffers — the aggregate, weight and bias blocks at contents `x0`, `x1`, `x2`, the output
    block at anything — reaches its continuation with the three inputs as they were and the output at `blockOut`. -/
theorem body_run (c : Dev nD) (E : Set ℕ) (i : grid0.Coords)
    (arg1 : Memref sig .tc .vmem S4x5000x64 .f32) (harg1 : arg1.IsWhole) (arg2 : Memref sig .tc .vmem S4x64x64 .f32) (harg2 : arg2.IsWhole)
    (arg3 : Memref sig .tc .vmem S4x64 .f32) (harg3 : arg3.IsWhole) (arg4 : Memref sig .tc .vmem S5000x64 .f32) (harg4 : arg4.IsWhole)
    (x0 : Vec F S4x5000x64 .f32) (x1 : Vec F S4x64x64 .f32) (x2 : Vec F S4x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (blockOut x0 x1 x2)) -∗ K ⟨⟩))
      ⊢ wp frame (wpE (defs₀ (F := F)) Variants.none c none) E (cc0__gcn_reduce_kernel i arg1 harg1 arg2 harg2 arg3 harg3 arg4 harg4) K := by
  simp only [cc0__gcn_reduce_kernel_eq_skeleton]; unfold cc0__gcn_reduce_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

end Cert.KernelIdeal.Point

end
-- ==== Proof.IdealRegion.lean ====
/-
  The region's run, and the frame.

  The pipeline hands the body, at each of the 20 grid points, the blocks of its three input arrays — rows
  5000·t … 5000·t + 4999 of every relation's aggregate, all the weights, all the biases — and writes the output
  block back to rows 5000·t … of the result. `iblk` names a window's block at a point, read off its array as the
  region finds it. The proof data say: after the body each input buffer still holds its block and the output buffer
  holds `Point.blockOut` of the three input blocks; nothing else is used. With the body's run at every point
  (`body_at`) the library's frame run applies (`run`): every execution terminates, every window's array ends at
  what the library computes from the proof data, every other unscoped buffer as the region found it. The frame
  (`frame`) reads the six arguments off that: four of them no window touches, two are input windows' arrays.
  All of it holds at every float instance.
-/
import proofs.«101282_j25907242729954_1_alg».proof.Proof.IdealEntry
import proofs.«101282_j25907242729954_1_alg».proof.Proof.IdealPoint

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Entry Cert.KernelIdeal.Point

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- On core `c`: the arrays as the region finds them; after the body at point `t` each input's buffer at its block
    and the output's at `blockOut` of the input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut (iblk m c 0 t) (iblk m c 1 t) (iblk m c 2 t)
  Φ _ := Pipeline.ΦA spec0 c
  q _ := fullShare
  owed _ := 0

/-- The proof data's arrays are the region-entry contents. -/
theorem arrays_eq (c : Dev nD) (w : Fin cfg0.W) : (dats m 0 c).A w = V m c (Pipeline.arrRef spec0 w) := by
  dsimp only [dats]

/-- What the body leaves, window by window. -/
theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) :
    (dats m 0 c).after 3 t = blockOut (iblk m c 0 t) (iblk m c 1 t) (iblk m c 2 t) := by dsimp only [dats]

/-- Input window 0's current buffer holds its block at every point, fetched there or not: unfetched, its block index
    has not moved. -/
theorem found0 (c : Dev nD) (t : Fin cfg0.N) (d) : (dats m 0 c).before 0 t d = iblk m c 0 t :=
  ((dats m 0 c).before_in_eq_fetched 0 rfl (fun _ => rfl) (fun _ _ _ => rfl)
      (fun t => by rw [left0]; unfold Dat.blockOf iblk; rw [arrays_eq]; try rfl) t d).trans
    (by unfold Dat.fetched Dat.blockOf iblk; rw [arrays_eq]; try rfl)
/-- Input window 1's current buffer holds its block at every point, fetched there or not: unfetched, its block index
    has not moved. -/
theorem found1 (c : Dev nD) (t : Fin cfg0.N) (d) : (dats m 0 c).before 1 t d = iblk m c 1 t :=
  ((dats m 0 c).before_in_eq_fetched 1 rfl (fun _ => rfl) (fun _ _ _ => rfl)
      (fun t => by rw [left1]; unfold Dat.blockOf iblk; rw [arrays_eq]; try rfl) t d).trans
    (by unfold Dat.fetched Dat.blockOf iblk; rw [arrays_eq]; try rfl)
/-- Input window 2's current buffer holds its block at every point, fetched there or not: unfetched, its block index
    has not moved. -/
theorem found2 (c : Dev nD) (t : Fin cfg0.N) (d) : (dats m 0 c).before 2 t d = iblk m c 2 t :=
  ((dats m 0 c).before_in_eq_fetched 2 rfl (fun _ => rfl) (fun _ _ _ => rfl)
      (fun t => by rw [left2]; unfold Dat.blockOf iblk; rw [arrays_eq]; try rfl) t d).trans
    (by unfold Dat.fetched Dat.blockOf iblk; rw [arrays_eq]; try rfl)

/-! ## The body at a point -/

/-- What the body is called with at point `t`, the windows one by one, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's run applies; the invariant and the
    core's debts pass through unread. -/
theorem body_at (c : Dev nD) (t : Fin cfg0.N) :
    pointPre m c t ⊢ wp frame (wpE (defs₀ (F := F)) Variants.none c none) Set.univ (bodyAt0 t) (fun _ => pointPost m c t) := by
  unfold pointPre pointPost bodyAt0
  simp only [found0, found1, found2]
  rw [show (dats m 0 c).Φ t.succ = (dats m 0 c).Φ t.castSucc from rfl,
    show (dats m 0 c).owesAt () t.succ = (dats m 0 c).owesAt () t.castSucc from rfl,
    left0, left1, left2, left3]
  iintro ⟨HΦ, Ho, ⟨%d0, H0⟩, ⟨%d1, H1⟩, ⟨%d2, H2⟩, ⟨%d3, H3⟩⟩
  iapply (body_run c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of the program terminates, and every final state
    has every window's array at what the library computes from the proof data and every other unscoped buffer as the
    region found it. -/
theorem run : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := entry m Variants.none) (hA := arrays_eq m) (hΦ := fun _ _ => rfl)

/-- The frame: the program runs to the end and its six argument arrays end as launched. Arguments 0–3 are buffers no
    window touches; arguments 4 and 5 are the arrays of input windows 1 and 2. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (kept_arg0 m c),
     ((h c).2 main_arg1 (Pipeline.mem_restRefs_of main_arg1 (by decide) (by decide))).trans (kept_arg1 m c),
     ((h c).2 main_arg2 (Pipeline.mem_restRefs_of main_arg2 (by decide) (by decide))).trans (kept_arg2 m c),
     ((h c).2 main_arg3 (Pipeline.mem_restRefs_of main_arg3 (by decide) (by decide))).trans (kept_arg3 m c),
     ((h c).1 1).trans (((dats m 0 c).arrAt_in 1 rfl _).trans ((arrays_eq m c 1).trans (kept_arg4 m c))),
     ((h c).1 2).trans (((dats m 0 c).arrAt_in 2 rfl _).trans ((arrays_eq m c 2).trans (kept_arg5 m c)))⟩) (run m ρ)

end Cert.KernelIdeal.Region

end
-- ==== Proof.RelationSum.lean ====
/-
  The layer this kernel and its reference compute, as one function on the extended reals.

  Given the four relations' aggregates laid side by side as A : [4, N, 64], the weights W : [4, 64, 64] and the
  biases b : [4, 64], entry (n, o) of the result is

      ((((z + Σ_j A(0,n,j)·W(0,j,o)) + Σ_j A(1,n,j)·W(1,j,o)) + Σ_j A(2,n,j)·W(2,j,o)) + Σ_j A(3,n,j)·W(3,j,o))
        + Σ_r b(r,o),

  the relations' products added in order onto z, the f32 word 0x00000000 (which is the number 0; it is kept as the word
  because both programs start from that same word), then the biases' column sum. Entry (n, o) uses row n of each
  aggregate only, so a block of rows of the result is the same function of the same rows of A: that is what lets the
  kernel compute 5000 rows at a time. No finiteness is assumed anywhere: both programs add in this same order.
-/
import Idealize.ShloMosaic.Lib.ValueIdx
import Idealize.ShloMosaic.PureOps.Ideal

noncomputable section

namespace Cert.RelationSum

open Idealize.ShloMosaic Idealize.ShloMosaic.ValueIdx

/-- Row n of relation r's aggregate times column o of relation r's weights. -/
def prod {N : ℕ} (A : FVec Ideal ⟨3, ![4, N, 64]⟩ .f32) (W : FVec Ideal ⟨3, ![4, 64, 64]⟩ .f32) (r : Fin 4) (n : Fin N) (o : Fin 64) : EReal :=
  ∑ j : Fin 64, A (ix3 r n j) * W (ix3 r j o)

/-- Entry (n, o) of the layer. -/
def entry {N : ℕ} (A : FVec Ideal ⟨3, ![4, N, 64]⟩ .f32) (W : FVec Ideal ⟨3, ![4, 64, 64]⟩ .f32) (b : FVec Ideal ⟨2, ![4, 64]⟩ .f32)
    (n : Fin N) (o : Fin 64) : EReal :=
  ((((Ideal.ofBits .f32 0x00000000#32 + prod A W 0 n o) + prod A W 1 n o) + prod A W 2 n o) + prod A W 3 n o) + ∑ r : Fin 4, b (ix2 r o)

/-- The layer as an array. -/
def layer {N : ℕ} (A : FVec Ideal ⟨3, ![4, N, 64]⟩ .f32) (W : FVec Ideal ⟨3, ![4, 64, 64]⟩ .f32) (b : FVec Ideal ⟨2, ![4, 64]⟩ .f32) :
    FVec Ideal ⟨2, ![N, 64]⟩ .f32 :=
  fun i => entry A W b (i 0) (i 1)

theorem layer_apply {N : ℕ} (A : FVec Ideal ⟨3, ![4, N, 64]⟩ .f32) (W : FVec Ideal ⟨3, ![4, 64, 64]⟩ .f32) (b : FVec Ideal ⟨2, ![4, 64]⟩ .f32)
    (n : Fin N) (o : Fin 64) : layer A W b (ix2 n o) = entry A W b n o := rfl

/-- Entry (n, o) depends on A only through row n of each relation: two aggregates that agree on those rows give the
    same entry, whatever their heights. -/
theorem entry_congr {N M : ℕ} (A : FVec Ideal ⟨3, ![4, N, 64]⟩ .f32) (A' : FVec Ideal ⟨3, ![4, M, 64]⟩ .f32)
    (W : FVec Ideal ⟨3, ![4, 64, 64]⟩ .f32) (b : FVec Ideal ⟨2, ![4, 64]⟩ .f32) (n : Fin N) (n' : Fin M) (o : Fin 64)
    (h : ∀ (r : Fin 4) (j : Fin 64), A (ix3 r n j) = A' (ix3 r n' j)) : entry A W b n o = entry A' W b n' o := by
  unfold entry prod
  simp only [h]

end Cert.RelationSum

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.LibColSum.lean ====
/-
  Three readings at an index, beside the keep-dims ones.

  A sum over the FIRST axis of an `[a, b]` array (the sublanes) into the zero accumulator is, at column `c`, the
  sum of that column's entries; a `[1, 1, 1]` scalar broadcast over `b` lanes reads the scalar everywhere; and a
  sum over the index set of a rank-1 shape is the sum over its one coordinate.
-/
import Idealize.ShloMosaic.Lib.Pipeline.Value
import Idealize.ShloMosaic.Lib.ValueIdx
import Idealize.ShloMosaic.PureOps.Ideal.Laws

noncomputable section

namespace Idealize.ShloMosaic.ColSum

open Idealize.ShloMosaic Idealize.ShloMosaic.ValueIdx

variable {α : Type}

/-- The sum over the rows of an `[a, b]` array into the zero accumulator, at column `c`, is the sum of the
    column's entries. -/
theorem colSum_apply {a b : ℕ} (v : FVec Ideal ⟨2, ![a, b]⟩ .f32) (h : (⟨2, ![a, b]⟩ : Shape).Reduces [0] ⟨1, ![b]⟩)
    (hacc : (0x00000000#32 : BitVec 32) = 0x00000000#32) (c : Fin b) :
    multiReduction .add [0] ⟨1, ![b]⟩ v 0x00000000#32 h (.inl rfl) hacc (ix1 c) = ∑ k : Fin a, v (ix2 k c) :=
  (Ideal.multiReduction_add_single v 0x00000000#32 h (.inl rfl) hacc (ix1 c)).trans
    (Finset.sum_congr rfl fun k _ => congrArg v (funext fun ax => Fin.ext (by
      match ax with
      | ⟨0, _⟩ => rfl
      | ⟨1, _⟩ => rfl)))

/-- A `[1, 1, 1]` scalar broadcast over `b` lanes reads, at every index, the scalar. -/
theorem broadcastTo_111_11b_apply {b : ℕ} (v : (⟨3, ![1, 1, 1]⟩ : Shape).Idx → α)
    (h : (⟨3, ![1, 1, 1]⟩ : Shape).Broadcasts ⟨3, ![1, 1, b]⟩) (y : (⟨3, ![1, 1, b]⟩ : Shape).Idx) :
    broadcastTo ⟨3, ![1, 1, b]⟩ v h y = v (ix3 (0 : Fin 1) (0 : Fin 1) (0 : Fin 1)) := by
  refine broadcastTo_apply v h y (ix3 (0 : Fin 1) (0 : Fin 1) (0 : Fin 1)) fun ax => ?_
  match ax with
  | ⟨0, _⟩ => rfl
  | ⟨1, _⟩ => rfl
  | ⟨2, _⟩ => rfl

/-- A rank-1 index set is its one coordinate's range … -/
def idxEquiv1 {n : ℕ} : (⟨1, ![n]⟩ : Shape).Idx ≃ Fin n where
  toFun i := i 0
  invFun t := ix1 t
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ t : Fin n, f (ix1 t) :=
  ((idxEquiv1 (n := n)).symm.sum_comp f).symm

end Idealize.ShloMosaic.ColSum

end
-- ==== Proof.LibRowBroadcast.lean ====
/-
  A row vector `[1, b]` broadcast down the rows of an `[a, b]` array, and a flat `[b]` vector laid as a row and
  broadcast the same way, read at an entry: entry `(p, q)` of the result is entry `q` of the row.
-/
import Idealize.ShloMosaic.Lib.ValueIdx
import Idealize.ShloMosaic.Lib.Pipeline.Value

noncomputable section

namespace Idealize.ShloMosaic.RowBroadcast

open Idealize.ShloMosaic Idealize.ShloMosaic.ValueIdx

variable {a b : ℕ} {α : Type}

/-- The kernel-side broadcast of a `[1, b]` row to `[a, b]`: entry `(p, q)` is the row's entry `(0, q)`. -/
theorem broadcastTo_row_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 (0 : Fin 1) q) := by
  refine broadcastTo_apply x h (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · rfl

/-- The host-side broadcast of a `[1, b]` row to `[a, b]` along both axes: entry `(p, q)` is the row's `(0, q)`. -/
theorem broadcastInDim_row_apply (dims : Fin 2 → Fin 2) (hd0 : dims 0 = 0) (hd1 : dims 1 = 1)
    (h : (⟨2, ![1, b]⟩ : Shape).BroadcastsInDim ⟨2, ![a, b]⟩ dims)
    (x : (⟨2, ![1, b]⟩ : Shape).Idx → α) (p : Fin a) (q : Fin b) :
    broadcastInDim ⟨2, ![a, b]⟩ dims h x (ix2 p q) = x (ix2 (0 : Fin 1) q) := by
  refine broadcastInDim_apply dims h x (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · show q.val = ((ix2 p q : (⟨2, ![a, b]⟩ : Shape).Idx) (dims 1)).val
        rw [hd1]

/-- The host-side lay-out of a flat `[b]` vector as a `[1, b]` row (its one axis sent to axis 1): entry `(0, q)` is
    the vector's entry `q`. -/
theorem broadcastInDim_flat_apply (dims : Fin 1 → Fin 2) (hd : dims 0 = 1)
    (h : (⟨1, ![b]⟩ : Shape).BroadcastsInDim ⟨2, ![1, b]⟩ dims)
    (x : (⟨1, ![b]⟩ : Shape).Idx → α) (z : Fin 1) (q : Fin b) :
    broadcastInDim ⟨2, ![1, b]⟩ dims h x (ix2 z q) = x (ix1 q) := by
  refine broadcastInDim_apply dims h x (ix2 z q) (ix1 q) fun ax => ?_
  match ax with
  | ⟨0, _⟩ =>
    by_cases hb : b = 1
    · subst hb
      have : q.val = 0 := by omega
      simp [this]
    · split
      · rename_i h1; exact absurd h1 hb
      · show q.val = ((ix2 z q : (⟨2, ![1, b]⟩ : Shape).Idx) (dims 0)).val
        rw [hd]

/-- A `[b]` vector reshaped to a `[1, b]` row: entry `(0, q)` is the vector's entry `q`. -/
theorem shapeCast_flat_apply (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h (ix2 z q) (ix1 q) ?_
  have hz : z.val = 0 := by omega
  rw [Shape.rowMajor_val_one, Shape.rowMajor_val_two]
  show q.val = z.val * _ + q.val
  rw [hz, Nat.zero_mul, Nat.zero_add]

end Idealize.ShloMosaic.RowBroadcast

end
-- ==== Proof.IdealBlockValue.lean ====
/-
  The body's output block, read at an entry.

  With the three input blocks as arrays x0 : [4, 5000, 64], x1 : [4, 64, 64], x2 : [4, 64], entry (p, q) of the block
  the body stores is the layer's entry (p, q) of those blocks (`RelationSum.entry`):
    • slab r of x0 with its leading unit axis dropped is the matrix x0(r, ·, ·), and likewise the weights; narrowing to
      bf16 is the identity on the extended reals; the matrix unit into a zero accumulator is the sum over the contracted
      lane of the products (`slabProd`);
    • the sum over the first axis of x2 into zero is the column sum, laid as a row and broadcast down the rows (`biasRow`);
    • the additions are pointwise and in the layer's order, starting from the zero block.
-/
import proofs.«101282_j25907242729954_1_alg».proof.Proof.IdealPoint
import proofs.«101282_j25907242729954_1_alg».proof.Proof.RelationSum
import proofs.«101282_j25907242729954_1_alg».proof.Proof.LibPlainDot
import proofs.«101282_j25907242729954_1_alg».proof.Proof.LibColSum
import proofs.«101282_j25907242729954_1_alg».proof.Proof.LibRowBroadcast
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.BlockValue

open Idealize.ShloMosaic Idealize.ShloMosaic.ValueIdx
open Cert.KernelIdeal Cert.KernelIdeal.Gen Cert.KernelIdeal.Point

/-! ## The matrix unit's dimension record: left axis 1 against right axis 0 -/

local notation "D" => dot_S5000x64_S64x64_S5000x64_1_0_0_1_n_n

theorem D_l0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem D_l1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem D_r0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem D_r1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A [5000, 64] by [64, 64] product into the zero accumulator, at entry (p, q): the sum over the contracted lane. -/
theorem unit_apply (a : FVec Ideal S5000x64 .bf16) (w : FVec Ideal S64x64 .bf16) (p : Fin 5000) (q : Fin 64) :
    matmul dot_S5000x64_S64x64_S5000x64_1_0_0_1_n_n none a w (constant (F := Ideal) S5000x64 .f32 0x00000000#32) (ix2 p q)
      = ∑ j : Fin 64, a (ix2 p j) * w (ix2 j q) :=
  PlainDot.matmul_zero_apply (a := 5000) (k := 64) (b := 64) dot_S5000x64_S64x64_S5000x64_1_0_0_1_n_n none rfl rfl D_l0 D_l1 D_r0 D_r1 a w p q

/-! ## One slab against one weight matrix -/

/-- A [1, 5000, 64] slab with its unit axis dropped, at (p, j). -/
theorem slab_apply (v : Vec Ideal S1x5000x64 .f32) (p : Fin 5000) (j : Fin 64) :
    (truncf .bf16 (shapeCast S5000x64 v shapeCasts_S1x5000x64_S5000x64) bitsLt_bf16_f32 : FVec Ideal S5000x64 .bf16) (ix2 p j)
      = v (ix3 (0 : Fin 1) p j) :=
  shapeCast_1ab_ab_apply v shapeCasts_S1x5000x64_S5000x64 p j

/-- A [1, 64, 64] weight slab with its unit axis dropped, at (j, q). -/
theorem wslab_apply (v : Vec Ideal S1x64x64 .f32) (j : Fin 64) (q : Fin 64) :
    (truncf .bf16 (shapeCast S64x64 v shapeCasts_S1x64x64_S64x64) bitsLt_bf16_f32 : FVec Ideal S64x64 .bf16) (ix2 j q)
      = v (ix3 (0 : Fin 1) j q) :=
  shapeCast_1ab_ab_apply v shapeCasts_S1x64x64_S64x64 j q

/-- The product of a dropped-axis slab with a dropped-axis weight slab, at (p, q). -/
theorem slabProd (va : Vec Ideal S1x5000x64 .f32) (vw : Vec Ideal S1x64x64 .f32) (p : Fin 5000) (q : Fin 64) :
    matmul dot_S5000x64_S64x64_S5000x64_1_0_0_1_n_n none
        (truncf .bf16 (shapeCast S5000x64 va shapeCasts_S1x5000x64_S5000x64) bitsLt_bf16_f32)
        (truncf .bf16 (shapeCast S64x64 vw shapeCasts_S1x64x64_S64x64) bitsLt_bf16_f32)
        (constant (F := Ideal) S5000x64 .f32 0x00000000#32) (ix2 p q)
      = ∑ j : Fin 64, va (ix3 (0 : Fin 1) p j) * vw (ix3 (0 : Fin 1) j q) :=
  (unit_apply _ _ p q).trans (Finset.sum_congr rfl fun j _ => by rw [slab_apply, wslab_apply])

/-! ## The slabs of the blocks -/

/-- Slab r of the aggregate block at (0, p, j) is the block at (r, p, j). -/
theorem ld_slab0 (x0 : Vec Ideal S4x5000x64 .f32) (p : Fin 5000) (j : Fin 64) : View.ld x0 slab0 (ix3 (0 : Fin 1) p j) = x0 (ix3 (0 : Fin 4) p j) :=
  congrArg x0 (funext fun a => Fin.ext (by match a with | ⟨0, _⟩ => rfl | ⟨1, _⟩ => show 0 + 1 * p.val = p.val; omega | ⟨2, _⟩ => show 0 + 1 * j.val = j.val; omega))
theorem ld_slab1 (x0 : Vec Ideal S4x5000x64 .f32) (p : Fin 5000) (j : Fin 64) : View.ld x0 slab1 (ix3 (0 : Fin 1) p j) = x0 (ix3 (1 : Fin 4) p j) :=
  congrArg x0 (funext fun a => Fin.ext (by match a with | ⟨0, _⟩ => rfl | ⟨1, _⟩ => show 0 + 1 * p.val = p.val; omega | ⟨2, _⟩ => show 0 + 1 * j.val = j.val; omega))
theorem ld_slab2 (x0 : Vec Ideal S4x5000x64 .f32) (p : Fin 5000) (j : Fin 64) : View.ld x0 slab2 (ix3 (0 : Fin 1) p j) = x0 (ix3 (2 : Fin 4) p j) :=
  congrArg x0 (funext fun a => Fin.ext (by match a with | ⟨0, _⟩ => rfl | ⟨1, _⟩ => show 0 + 1 * p.val = p.val; omega | ⟨2, _⟩ => show 0 + 1 * j.val = j.val; omega))
theorem ld_slab3 (x0 : Vec Ideal S4x5000x64 .f32) (p : Fin 5000) (j : Fin 64) : View.ld x0 slab3 (ix3 (0 : Fin 1) p j) = x0 (ix3 (3 : Fin 4) p j) :=
  congrArg x0 (funext fun a => Fin.ext (by match a with | ⟨0, _⟩ => rfl | ⟨1, _⟩ => show 0 + 1 * p.val = p.val; omega | ⟨2, _⟩ => show 0 + 1 * j.val = j.val; omega))
/-- Weight slab r at (0, j, q) is the weight block at (r, j, q). -/
theorem ld_wmat0 (x1 : Vec Ideal S4x64x64 .f32) (j q : Fin 64) : View.ld x1 wmat0 (ix3 (0 : Fin 1) j q) = x1 (ix3 (0 : Fin 4) j q) :=
  congrArg x1 (funext fun a => Fin.ext (by match a with | ⟨0, _⟩ => rfl | ⟨1, _⟩ => show 0 + 1 * j.val = j.val; omega | ⟨2, _⟩ => show 0 + 1 * q.val = q.val; omega))
theorem ld_wmat1 (x1 : Vec Ideal S4x64x64 .f32) (j q : Fin 64) : View.ld x1 wmat1 (ix3 (0 : Fin 1) j q) = x1 (ix3 (1 : Fin 4) j q) :=
  congrArg x1 (funext fun a => Fin.ext (by match a with | ⟨0, _⟩ => rfl | ⟨1, _⟩ => show 0 + 1 * j.val = j.val; omega | ⟨2, _⟩ => show 0 + 1 * q.val = q.val; omega))
theorem ld_wmat2 (x1 : Vec Ideal S4x64x64 .f32) (j q : Fin 64) : View.ld x1 wmat2 (ix3 (0 : Fin 1) j q) = x1 (ix3 (2 : Fin 4) j q) :=
  congrArg x1 (funext fun a => Fin.ext (by match a with | ⟨0, _⟩ => rfl | ⟨1, _⟩ => show 0 + 1 * j.val = j.val; omega | ⟨2, _⟩ => show 0 + 1 * q.val = q.val; omega))
theorem ld_wmat3 (x1 : Vec Ideal S4x64x64 .f32) (j q : Fin 64) : View.ld x1 wmat3 (ix3 (0 : Fin 1) j q) = x1 (ix3 (3 : Fin 4) j q) :=
  congrArg x1 (funext fun a => Fin.ext (by match a with | ⟨0, _⟩ => rfl | ⟨1, _⟩ => show 0 + 1 * j.val = j.val; omega | ⟨2, _⟩ => show 0 + 1 * q.val = q.val; omega))

/-! ## Each relation's product -/

/-- Relation 0's slab against relation 0's weights, at (p, q). -/
theorem relProd0 (x0 : Vec Ideal S4x5000x64 .f32) (x1 : Vec Ideal S4x64x64 .f32) (p : Fin 5000) (q : Fin 64) :
    matmul dot_S5000x64_S64x64_S5000x64_1_0_0_1_n_n none
        (truncf .bf16 (shapeCast S5000x64 (View.ld x0 slab0) shapeCasts_S1x5000x64_S5000x64) bitsLt_bf16_f32)
        (truncf .bf16 (shapeCast S64x64 (View.ld x1 wmat0) shapeCasts_S1x64x64_S64x64) bitsLt_bf16_f32)
        (constant (F := Ideal) S5000x64 .f32 0x00000000#32) (ix2 p q)
      = RelationSum.prod (N := 5000) x0 x1 (0 : Fin 4) p q :=
  (slabProd _ _ p q).trans (Finset.sum_congr rfl fun j _ => congrArg₂ (· * ·) (ld_slab0 x0 p j) (ld_wmat0 x1 j q))
/-- Relation 1's slab against relation 1's weights, at (p, q). -/
theorem relProd1 (x0 : Vec Ideal S4x5000x64 .f32) (x1 : Vec Ideal S4x64x64 .f32) (p : Fin 5000) (q : Fin 64) :
    matmul dot_S5000x64_S64x64_S5000x64_1_0_0_1_n_n none
        (truncf .bf16 (shapeCast S5000x64 (View.ld x0 slab1) shapeCasts_S1x5000x64_S5000x64) bitsLt_bf16_f32)
        (truncf .bf16 (shapeCast S64x64 (View.ld x1 wmat1) shapeCasts_S1x64x64_S64x64) bitsLt_bf16_f32)
        (constant (F := Ideal) S5000x64 .f32 0x00000000#32) (ix2 p q)
      = RelationSum.prod (N := 5000) x0 x1 (1 : Fin 4) p q :=
  (slabProd _ _ p q).trans (Finset.sum_congr rfl fun j _ => congrArg₂ (· * ·) (ld_slab1 x0 p j) (ld_wmat1 x1 j q))
/-- Relation 2's slab against relation 2's weights, at (p, q). -/
theorem relProd2 (x0 : Vec Ideal S4x5000x64 .f32) (x1 : Vec Ideal S4x64x64 .f32) (p : Fin 5000) (q : Fin 64) :
    matmul dot_S5000x64_S64x64_S5000x64_1_0_0_1_n_n none
        (truncf .bf16 (shapeCast S5000x64 (View.ld x0 slab2) shapeCasts_S1x5000x64_S5000x64) bitsLt_bf16_f32)
        (truncf .bf16 (shapeCast S64x64 (View.ld x1 wmat2) shapeCasts_S1x64x64_S64x64) bitsLt_bf16_f32)
        (constant (F := Ideal) S5000x64 .f32 0x00000000#32) (ix2 p q)
      = RelationSum.prod (N := 5000) x0 x1 (2 : Fin 4) p q :=
  (slabProd _ _ p q).trans (Finset.sum_congr rfl fun j _ => congrArg₂ (· * ·) (ld_slab2 x0 p j) (ld_wmat2 x1 j q))
/-- Relation 3's slab against relation 3's weights, at (p, q). -/
theorem relProd3 (x0 : Vec Ideal S4x5000x64 .f32) (x1 : Vec Ideal S4x64x64 .f32) (p : Fin 5000) (q : Fin 64) :
    matmul dot_S5000x64_S64x64_S5000x64_1_0_0_1_n_n none
        (truncf .bf16 (shapeCast S5000x64 (View.ld x0 slab3) shapeCasts_S1x5000x64_S5000x64) bitsLt_bf16_f32)
        (truncf .bf16 (shapeCast S64x64 (View.ld x1 wmat3) shapeCasts_S1x64x64_S64x64) bitsLt_bf16_f32)
        (constant (F := Ideal) S5000x64 .f32 0x00000000#32) (ix2 p q)
      = RelationSum.prod (N := 5000) x0 x1 (3 : Fin 4) p q :=
  (slabProd _ _ p q).trans (Finset.sum_congr rfl fun j _ => congrArg₂ (· * ·) (ld_slab3 x0 p j) (ld_wmat3 x1 j q))

/-! ## The bias row -/

theorem zeros2 : (![0, 0] : Fin 2 → Nat) = fun _ => 0 := funext fun a => by fin_cases a <;> rfl

/-- The biases' column sums, laid as a row and broadcast down the 5000 rows, at (p, q): the sum of column q. -/
theorem biasRow (x2 : Vec Ideal S4x64 .f32) (p : Fin 5000) (q : Fin 64) :
    broadcastTo S5000x64 (shapeCast S1x64 (multiReduction (F := Ideal) .add [0] S64 (View.ld x2 biasAll) 0x00000000#32 reduces_S4x64_S64 (.inl rfl) rfl)
        shapeCasts_S64_S1x64) broadcasts_S1x64_S5000x64 (ix2 p q)
      = ∑ r : Fin 4, x2 (ix2 r q) := by
  rw [View.ld_unit_zero (S := S4x64) zeros2]
  refine (RowBroadcast.broadcastTo_row_apply (a := 5000) (b := 64) _ broadcasts_S1x64_S5000x64 p q).trans ?_
  refine (RowBroadcast.shapeCast_flat_apply (b := 64) _ shapeCasts_S64_S1x64 (0 : Fin 1) q).trans ?_
  exact ColSum.colSum_apply (a := 4) (b := 64) x2 reduces_S4x64_S64 rfl q

/-! ## The block at an entry -/

/-- Entry (p, q) of the block the body stores is the layer's entry (p, q) of the three input blocks. -/
theorem blockOut_apply (x0 : Vec Ideal S4x5000x64 .f32) (x1 : Vec Ideal S4x64x64 .f32) (x2 : Vec Ideal S4x64 .f32) (p : Fin 5000) (q : Fin 64) :
    blockOut x0 x1 x2 (ix2 p q) = RelationSum.entry (N := 5000) x0 x1 x2 p q := by
  unfold blockOut
  rw [View.canon_unit_zero zeros2]
  unfold k0_pay1 k0_pay2 k0_pay3 k0_pay4 RelationSum.entry
  dsimp only
  rw [addf_apply, addf_apply, addf_apply, addf_apply, addf_apply, broadcast_apply]
  rw [relProd0, relProd1, relProd2, relProd3, biasRow]
  rfl

end Cert.KernelIdeal.BlockValue

end
-- ==== Proof.IdealArray.lean ====
/-
  The result array after the run.

  Grid point t is handed rows 5000·t … 5000·t + 4999 of every relation's aggregate, all the weights and all the biases,
  and writes rows 5000·t … of the result. The layer's entry (n, o) uses row n of the aggregates only, so what point t
  writes back is rows 5000·t … of the layer of the WHOLE arrays (`written_block`, for any arrays; `written_eq`). The 20 blocks tile the 100000 rows
  (`covered`), so after the run the result array is the layer of the arrays as the region finds them (`result_eq`), and
  the frame run can be re-posted with it (`run_value`).
-/
import proofs.«101282_j25907242729954_1_alg».proof.Proof.IdealRegion
import proofs.«101282_j25907242729954_1_alg».proof.Proof.IdealBlockValue

set_option maxRecDepth 16384

noncomputable section

namespace Cert.KernelIdeal.ArrayValue

open Idealize.ShloMosaic Idealize.ShloMosaic.TcCoe Idealize.ShloMosaic.ValueIdx
open Idealize.SL Idealize.SL.Sem
open Idealize.ShloMosaic.Rounds
open Idealize.ShloMosaic.Pipeline (Dat Cfg Window)
open Cert.KernelIdeal Cert.KernelIdeal.Gen Cert.KernelIdeal.Entry Cert.KernelIdeal.Point Cert.KernelIdeal.Region
open Cert.KernelIdeal.BlockValue

variable (m : (ℓ : Loc nD τ sig) → Buf (Elt Ideal) ℓ) (ρ : Dev nD → PrngReg)

/-! ## Where the blocks sit -/

/-- The windows' block indices over the grid: the aggregate's moves along its rows with the result's, the weights'
    and the biases' stay at zero, and the result's row-block index is the point's number. -/
theorem block_indices : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 20 := lt_of_lt_of_eq t.isLt N_0

/-- Row p of point t's block is row 5000·t + p of the array. -/
def row (t : Fin cfg0.N) (p : Fin 5000) : Fin 100000 := ⟨t.val * 5000 + p.val, by have := point_lt t; have := p.isLt; omega⟩

/-! ## Reading a block of an arbitrary array -/

/-- Point t's block of a [4, 100000, 64] array X, at (r, p, j): X at (r, 5000·t + p, j). -/
theorem read_rows (X : S4x100000x64.Idx → EReal) (t : Fin cfg0.N) (r : Fin 4) (p : Fin 5000) (j : Fin 64) :
    ((cfg0.win 0).blk t).view.read (Elt Ideal) X (ix3 r p j) = X (ix3 r (row t p) j) := by
  obtain ⟨e0, e1, e2, -⟩ := block_indices t
  show X (((cfg0.win 0).blk t).view.emb (ix3 r p j)) = X (ix3 r (row t p) j)
  refine congrArg X (funext fun a => Fin.ext ?_)
  match a with
  | ⟨0, _⟩ => show win0_0.index t (0 : Fin 3) * 4 + 1 * r.val = r.val; omega
  | ⟨1, _⟩ => show win0_0.index t (1 : Fin 3) * 5000 + 1 * p.val = t.val * 5000 + p.val; omega
  | ⟨2, _⟩ => show win0_0.index t (2 : Fin 3) * 64 + 1 * j.val = j.val; omega

/-- Every point's block of a [4, 64, 64] array is the whole array. -/
theorem read_weights (X : S4x64x64.Idx → EReal) (t : Fin cfg0.N) (r : Fin 4) (j q : Fin 64) :
    ((cfg0.win 1).blk t).view.read (Elt Ideal) X (ix3 r j q) = X (ix3 r j q) := by
  obtain ⟨-, -, -, e0, e1, e2, -⟩ := block_indices t
  show X (((cfg0.win 1).blk t).view.emb (ix3 r j q)) = X (ix3 r j q)
  refine congrArg X (funext fun a => Fin.ext ?_)
  match a with
  | ⟨0, _⟩ => show win0_1.index t (0 : Fin 3) * 4 + 1 * r.val = r.val; omega
  | ⟨1, _⟩ => show win0_1.index t (1 : Fin 3) * 64 + 1 * j.val = j.val; omega
  | ⟨2, _⟩ => show win0_1.index t (2 : Fin 3) * 64 + 1 * q.val = q.val; omega

/-- Every point's block of a [4, 64] array is the whole array. -/
theorem read_biases (X : S4x64.Idx → EReal) (t : Fin cfg0.N) (r : Fin 4) (q : Fin 64) :
    ((cfg0.win 2).blk t).view.read (Elt Ideal) X (ix2 r q) = X (ix2 r q) := by
  obtain ⟨-, -, -, -, -, -, e0, e1, -⟩ := block_indices t
  show X (((cfg0.win 2).blk t).view.emb (ix2 r q)) = X (ix2 r q)
  refine congrArg X (funext fun a => Fin.ext ?_)
  match a with
  | ⟨0, _⟩ => show win0_2.index t (0 : Fin 2) * 4 + 1 * r.val = r.val; omega
  | ⟨1, _⟩ => show win0_2.index t (1 : Fin 2) * 64 + 1 * q.val = q.val; omega

/-- Entry (p, q) of point t's result block sits at (5000·t + p, q) of the result array. -/
theorem out_at (t : Fin cfg0.N) (p : Fin 5000) (q : Fin 64) :
    ((cfg0.win 3).blk t).view.emb (ix2 p q) = (ix2 (row t p) q : S100000x64.Idx) := by
  obtain ⟨-, -, -, -, -, -, -, -, e0, e1⟩ := block_indices t
  refine funext fun a => Fin.ext ?_
  match a with
  | ⟨0, _⟩ => show win0_3.index t (0 : Fin 2) * 5000 + 1 * p.val = t.val * 5000 + p.val; omega
  | ⟨1, _⟩ => show win0_3.index t (1 : Fin 2) * 64 + 1 * q.val = q.val; omega

/-! ## What a point writes back -/

theorem mul_congr {a a' b b' : EReal} (h1 : a = a') (h2 : b = b') : a * b = a' * b' := by rw [h1, h2]

/-- For ANY arrays A, W, b: the body's output block of point t's blocks of A, W, b is block t of the layer of the whole
    arrays — entry (p, q) of the block uses rows 5000·t + p of A only, and those are row p of A's block. -/
theorem written_block (A : S4x100000x64.Idx → EReal) (W : S4x64x64.Idx → EReal) (b : S4x64.Idx → EReal) (t : Fin cfg0.N) :
    blockOut (((cfg0.win 0).blk t).view.read (Elt Ideal) A) (((cfg0.win 1).blk t).view.read (Elt Ideal) W)
        (((cfg0.win 2).blk t).view.read (Elt Ideal) b)
      = ((cfg0.win 3).blk t).view.read (Elt Ideal) (RelationSum.layer (N := 100000) A W b) := by
  funext y
  obtain ⟨p, q, rfl⟩ : ∃ (p : Fin 5000) (q : Fin 64), y = ix2 p q := ⟨y 0, y 1, eq_ix2 y⟩
  refine (blockOut_apply _ _ _ p q).trans ?_
  show _ = RelationSum.layer (N := 100000) A W b (((cfg0.win 3).blk t).view.emb (ix2 p q))
  rw [out_at]
  show RelationSum.entry (N := 5000) (((cfg0.win 0).blk t).view.read (Elt Ideal) A) (((cfg0.win 1).blk t).view.read (Elt Ideal) W)
      (((cfg0.win 2).blk t).view.read (Elt Ideal) b) p q
    = RelationSum.entry (N := 100000) A W b (row t p) q
  unfold RelationSum.entry RelationSum.prod
  refine congrArg₂ (· + ·) (congrArg₂ (· + ·) (congrArg₂ (· + ·) (congrArg₂ (· + ·) (congrArg₂ (· + ·) rfl ?_) ?_) ?_) ?_) ?_
  · exact Finset.sum_congr rfl fun j _ => mul_congr (read_rows A t 0 p j) (read_weights W t 0 j q)
  · exact Finset.sum_congr rfl fun j _ => mul_congr (read_rows A t 1 p j) (read_weights W t 1 j q)
  · exact Finset.sum_congr rfl fun j _ => mul_congr (read_rows A t 2 p j) (read_weights W t 2 j q)
  · exact Finset.sum_congr rfl fun j _ => mul_congr (read_rows A t 3 p j) (read_weights W t 3 j q)
  · exact Finset.sum_congr rfl fun r _ => read_biases b t r q

/-- What point t writes back is block t of the layer of the arrays as the region finds them. -/
theorem written_eq (c : Dev nD) (t : Fin cfg0.N) :
    (dats m 0 c).flushed 3 t
      = ((cfg0.win 3).blk t).view.read (Elt Ideal) (RelationSum.layer (N := 100000) (V m c main_v80) (V m c main_arg4) (V m c main_arg5)) := by
  show (cfg0.win 3).cut (grid0.coords t) ((dats m 0 c).after 3 t) = _
  rw [left3]
  exact written_block _ _ _ t

/-! ## The blocks tile the result -/

theorem mem_block (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v81).slice (win0_3.rect t)).set ↔ _
  rw [View.set_slice_whole, Rect.mem_set_unit]
  exact Iff.rfl

/-- Every row block is some point's. -/
theorem block_onto : ∀ b : Fin 20, ∃ t : Fin cfg0.N, win0_3.index t = ![b.val, 0] :=
  (by decide +kernel : ∀ b : Fin 20, ∃ t : Fin grid0.N, win0_3.index t = ![b.val, 0])

/-- Every entry of the result is in the block of the point that owns its row: row n belongs to point n / 5000. -/
theorem covered (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := block_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-! ## The result array, and the run with it -/

/-- After the run the result array is the layer of the arrays as the region finds them. -/
theorem result_eq (c : Dev nD) :
    (dats m 0 c).arrAt 3 cfg0.N = RelationSum.layer (N := 100000) (V m c main_v80) (V m c main_arg4) (V m c main_arg5) :=
  (dats m 0 c).arrAt_eq_of_cover 3 _ (fun t _ => written_eq m c t) covered

/-- The run, re-posted: the result array at the layer of the aggregate array the region finds and the weights and
    biases as launched; the six arguments unchanged. -/
theorem run_value : θ_run defs (onTc (τ := τ) (main (F := Ideal))) ⟨m, fun _ => 0, ρ⟩ (fun r => ∀ c : Dev nD,
      r.2.mem ((c.tc : Thread nD τ).loc main_v81)
        = RelationSum.layer (N := 100000) (V m c main_v80) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 3).trans ((result_eq m c).trans (by rw [kept_arg4, kept_arg5])),
     ((h c).2 main_arg0 (Pipeline.mem_restRefs_of main_arg0 (by decide) (by decide))).trans (kept_arg0 m c),
     ((h c).2 main_arg1 (Pipeline.mem_restRefs_of main_arg1 (by decide) (by decide))).trans (kept_arg1 m c),
     ((h c).2 main_arg2 (Pipeline.mem_restRefs_of main_arg2 (by decide) (by decide))).trans (kept_arg2 m c),
     ((h c).2 main_arg3 (Pipeline.mem_restRefs_of main_arg3 (by decide) (by decide))).trans (kept_arg3 m c),
     ((h c).1 1).trans (((dats m 0 c).arrAt_in 1 rfl _).trans ((arrays_eq m c 1).trans (kept_arg4 m c))),
     ((h c).1 2).trans (((dats m 0 c).arrAt_in 2 rfl _).trans ((arrays_eq m c 2).trans (kept_arg5 m c)))⟩) (run m ρ)

end Cert.KernelIdeal.ArrayValue

end
-- ==== Proof.IdealAggregates.lean ====
/-
  The four aggregates the kernel's host lines compute are the reference's.

  For each relation r the kernel's host lines slice row r of the source indices, wrap negative indices, gather those
  rows of the node features, scale them by row r of the edge values, and scatter-add them onto the rows named by row r
  of the destination indices, starting from zeros. The reference does the same, line for line, with the same
  literals. So the buffer each chain ends in holds the reference's stage of the same chain, as a function of the four
  arguments; the chains are never opened beyond matching them operation by operation.
-/
import proofs.«101282_j25907242729954_1_alg».proof.Proof.IdealEntry
import proofs.«101282_j25907242729954_1_alg».proof.Proof.Gen.ReferenceIdeal.Read

set_option maxRecDepth 16384

noncomputable section

namespace Cert.KernelIdeal.Aggregates

open Idealize.ShloMosaic Idealize.ShloMosaic.TcCoe Idealize.ShloMosaic.StableHlo
open Idealize.SL Idealize.SL.Sem
open Cert.KernelIdeal Cert.KernelIdeal.Gen Cert.KernelIdeal.Entry

variable (m : (ℓ : Loc nD τ sig) → Buf (Elt Ideal) ℓ)

set_option maxHeartbeats 40000000 in
/-- Relation 0's aggregate buffer holds the reference's aggregate of relation 0: the same gather, product and
    scatter-add, line for line, of the same arguments. -/
theorem agg0_eq (c : Dev nD) :
    (V m c main_v18 : S100000x64.Idx → EReal)
      = Cert.ReferenceIdeal.Read.val_main_v19 (F := Ideal) (m ((c.tc : Thread nD τ).loc main_arg0)) (m ((c.tc : Thread nD τ).loc main_arg1))
          (m ((c.tc : Thread nD τ).loc main_arg2)) (m ((c.tc : Thread nD τ).loc main_arg3)) := by
  dsimp only [V, hostOps0]
  after_results_simp
  rfl

set_option maxHeartbeats 40000000 in
/-- Relation 1's aggregate buffer holds the reference's aggregate of relation 1: the same gather, product and
    scatter-add, line for line, of the same arguments. -/
theorem agg1_eq (c : Dev nD) :
    (V m c main_v37 : S100000x64.Idx → EReal)
      = Cert.ReferenceIdeal.Read.val_main_v42 (F := Ideal) (m ((c.tc : Thread nD τ).loc main_arg0)) (m ((c.tc : Thread nD τ).loc main_arg1))
          (m ((c.tc : Thread nD τ).loc main_arg2)) (m ((c.tc : Thread nD τ).loc main_arg3)) := by
  dsimp only [V, hostOps0]
  after_results_simp
  rfl

set_option maxHeartbeats 40000000 in
/-- Relation 2's aggregate buffer holds the reference's aggregate of relation 2: the same gather, product and
    scatter-add, line for line, of the same arguments. -/
theorem agg2_eq (c : Dev nD) :
    (V m c main_v56 : S100000x64.Idx → EReal)
      = Cert.ReferenceIdeal.Read.val_main_v65 (F := Ideal) (m ((c.tc : Thread nD τ).loc main_arg0)) (m ((c.tc : Thread nD τ).loc main_arg1))
          (m ((c.tc : Thread nD τ).loc main_arg2)) (m ((c.tc : Thread nD τ).loc main_arg3)) := by
  dsimp only [V, hostOps0]
  after_results_simp
  rfl

set_option maxHeartbeats 40000000 in
/-- Relation 3's aggregate buffer holds the reference's aggregate of relation 3: the same gather, product and
    scatter-add, line for line, of the same arguments. -/
theorem agg3_eq (c : Dev nD) :
    (V m c main_v75 : S100000x64.Idx → EReal)
      = Cert.ReferenceIdeal.Read.val_main_v88 (F := Ideal) (m ((c.tc : Thread nD τ).loc main_arg0)) (m ((c.tc : Thread nD τ).loc main_arg1))
          (m ((c.tc : Thread nD τ).loc main_arg2)) (m ((c.tc : Thread nD τ).loc main_arg3)) := by
  dsimp only [V, hostOps0]
  after_results_simp
  rfl

end Cert.KernelIdeal.Aggregates

end
-- ==== Proof.IdealStack.lean ====
/-
  The aggregate array the region is handed.

  After the four aggregates are computed, the host lines give each a leading unit axis and lay the four side by side as
  one [4, 100000, 64] array: the array window 0 of the region reads. Its entry (r, n, j) is relation r's aggregate at
  (n, j) (`stack_at0` … `stack_at3`), and that aggregate is the reference's (`Aggregates`). Nothing else about the array
  is used.
-/
import proofs.«101282_j25907242729954_1_alg».proof.Proof.IdealAggregates
import Idealize.ShloMosaic.Lib.Pipeline.Value
import Idealize.ShloMosaic.Lib.ValueIdx

set_option maxRecDepth 16384

noncomputable section

namespace Cert.KernelIdeal.Stack

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Entry

/-- An [n, b] array given a leading unit axis, at (0, n, j). -/
theorem lead_apply {α : Type} (x : S100000x64.Idx → α) (n : Fin 100000) (j : Fin 64) :
    broadcastInDim S1x100000x64 ![1, 2] bcast_S100000x64_S1x100000x64_1_2 x (ix3 (0 : Fin 1) n j) = x (ix2 n j) :=
  broadcastInDim_apply _ bcast_S100000x64_S1x100000x64_1_2 x (ix3 (0 : Fin 1) n j) (ix2 n j) (fun a => match a with
    | ⟨0, _⟩ => by show n.val = if (100000 : Nat) = 1 then 0 else n.val; rw [if_neg (by decide)]
    | ⟨1, _⟩ => by show j.val = if (64 : Nat) = 1 then 0 else j.val; rw [if_neg (by decide)])

/-- Off the first axis, (0, n, j) and (r, n, j) have the same coordinates. -/
theorem off_axis (r : Fin 4) (n : Fin 100000) (j : Fin 64) :
    ∀ b : Fin S1x100000x64.rank, b.cast (rfl : S1x100000x64.rank = S4x100000x64.rank) ≠ (0 : Fin S4x100000x64.rank) →
      ((ix3 (0 : Fin 1) n j : S1x100000x64.Idx) b).val = ((ix3 r n j : S4x100000x64.Idx) (b.cast rfl)).val := fun b hb => by
  match b with
  | ⟨0, _⟩ => exact absurd rfl hb
  | ⟨1, _⟩ => rfl
  | ⟨2, _⟩ => rfl

/-! Four [1, 100000, 64] arrays laid side by side along the first axis, at (r, n, j): the r-th array at (0, n, j). -/

theorem side0 {α : Type} (y0 y1 y2 y3 : S1x100000x64.Idx → α)
    (h : Shape.Concatenates ([(⟨S1x100000x64, y0⟩ : (s : Shape) × (s.Idx → α)), ⟨S1x100000x64, y1⟩, ⟨S1x100000x64, y2⟩, ⟨S1x100000x64, y3⟩].map (·.1)) S4x100000x64 0)
    (n : Fin 100000) (j : Fin 64) :
    concatenate S4x100000x64 0 [⟨S1x100000x64, y0⟩, ⟨S1x100000x64, y1⟩, ⟨S1x100000x64, y2⟩, ⟨S1x100000x64, y3⟩] h (ix3 (0 : Fin 4) n j)
      = y0 (ix3 (0 : Fin 1) n j) :=
  concatenate_apply_piece (0 : Fin S4x100000x64.rank) _ h _ 0 (by show (0 : Nat) < 4; omega) S1x100000x64 y0 rfl rfl 0 rfl _ (off_axis (0 : Fin 4) n j) rfl
theorem side1 {α : Type} (y0 y1 y2 y3 : S1x100000x64.Idx → α)
    (h : Shape.Concatenates ([(⟨S1x100000x64, y0⟩ : (s : Shape) × (s.Idx → α)), ⟨S1x100000x64, y1⟩, ⟨S1x100000x64, y2⟩, ⟨S1x100000x64, y3⟩].map (·.1)) S4x100000x64 0)
    (n : Fin 100000) (j : Fin 64) :
    concatenate S4x100000x64 0 [⟨S1x100000x64, y0⟩, ⟨S1x100000x64, y1⟩, ⟨S1x100000x64, y2⟩, ⟨S1x100000x64, y3⟩] h (ix3 (1 : Fin 4) n j)
      = y1 (ix3 (0 : Fin 1) n j) :=
  concatenate_apply_piece (0 : Fin S4x100000x64.rank) _ h _ 1 (by show (1 : Nat) < 4; omega) S1x100000x64 y1 rfl rfl 1 rfl _ (off_axis (1 : Fin 4) n j) rfl
theorem side2 {α : Type} (y0 y1 y2 y3 : S1x100000x64.Idx → α)
    (h : Shape.Concatenates ([(⟨S1x100000x64, y0⟩ : (s : Shape) × (s.Idx → α)), ⟨S1x100000x64, y1⟩, ⟨S1x100000x64, y2⟩, ⟨S1x100000x64, y3⟩].map (·.1)) S4x100000x64 0)
    (n : Fin 100000) (j : Fin 64) :
    concatenate S4x100000x64 0 [⟨S1x100000x64, y0⟩, ⟨S1x100000x64, y1⟩, ⟨S1x100000x64, y2⟩, ⟨S1x100000x64, y3⟩] h (ix3 (2 : Fin 4) n j)
      = y2 (ix3 (0 : Fin 1) n j) :=
  concatenate_apply_piece (0 : Fin S4x100000x64.rank) _ h _ 2 (by show (2 : Nat) < 4; omega) S1x100000x64 y2 rfl rfl 2 rfl _ (off_axis (2 : Fin 4) n j) rfl
theorem side3 {α : Type} (y0 y1 y2 y3 : S1x100000x64.Idx → α)
    (h : Shape.Concatenates ([(⟨S1x100000x64, y0⟩ : (s : Shape) × (s.Idx → α)), ⟨S1x100000x64, y1⟩, ⟨S1x100000x64, y2⟩, ⟨S1x100000x64, y3⟩].map (·.1)) S4x100000x64 0)
    (n : Fin 100000) (j : Fin 64) :
    concatenate S4x100000x64 0 [⟨S1x100000x64, y0⟩, ⟨S1x100000x64, y1⟩, ⟨S1x100000x64, y2⟩, ⟨S1x100000x64, y3⟩] h (ix3 (3 : Fin 4) n j)
      = y3 (ix3 (0 : Fin 1) n j) :=
  concatenate_apply_piece (0 : Fin S4x100000x64.rank) _ h _ 3 (by show (3 : Nat) < 4; omega) S1x100000x64 y3 rfl rfl 3 rfl _ (off_axis (3 : Fin 4) n j) rfl

variable (m : (ℓ : Loc nD τ sig) → Buf (Elt Ideal) ℓ)

set_option maxHeartbeats 40000000 in
/-- The array the region finds: the four aggregate buffers, each with a leading unit axis, laid side by side. -/
theorem stacked (c : Dev nD) :
    (V m c main_v80 : S4x100000x64.Idx → EReal)
      = concatenate S4x100000x64 0
          [⟨S1x100000x64, broadcastInDim S1x100000x64 ![1, 2] bcast_S100000x64_S1x100000x64_1_2 (V m c main_v18 : S100000x64.Idx → EReal)⟩,
           ⟨S1x100000x64, broadcastInDim S1x100000x64 ![1, 2] bcast_S100000x64_S1x100000x64_1_2 (V m c main_v37 : S100000x64.Idx → EReal)⟩,
           ⟨S1x100000x64, broadcastInDim S1x100000x64 ![1, 2] bcast_S100000x64_S1x100000x64_1_2 (V m c main_v56 : S100000x64.Idx → EReal)⟩,
           ⟨S1x100000x64, broadcastInDim S1x100000x64 ![1, 2] bcast_S100000x64_S1x100000x64_1_2 (V m c main_v75 : S100000x64.Idx → EReal)⟩]
          concatenates_S1x100000x64_S1x100000x64_S1x100000x64_S1x100000x64_S4x100000x64_d0 := by
  dsimp only [V, hostOps0]
  after_results_simp
  try rfl

/-- Entry (0, n, j) of the array the region finds is relation 0's aggregate at (n, j). -/
theorem stack_at0 (c : Dev nD) (n : Fin 100000) (j : Fin 64) :
    V m c main_v80 (ix3 (0 : Fin 4) n j)
      = Cert.ReferenceIdeal.Read.val_main_v19 (F := Ideal) (m ((c.tc : Thread nD τ).loc main_arg0)) (m ((c.tc : Thread nD τ).loc main_arg1))
          (m ((c.tc : Thread nD τ).loc main_arg2)) (m ((c.tc : Thread nD τ).loc main_arg3)) (ix2 n j) :=
  (congrFun (stacked m c) (ix3 (0 : Fin 4) n j)).trans
    ((side0 _ _ _ _ _ n j).trans ((lead_apply _ n j).trans (congrFun (Aggregates.agg0_eq m c) (ix2 n j))))
/-- Entry (1, n, j) of the array the region finds is relation 1's aggregate at (n, j). -/
theorem stack_at1 (c : Dev nD) (n : Fin 100000) (j : Fin 64) :
    V m c main_v80 (ix3 (1 : Fin 4) n j)
      = Cert.ReferenceIdeal.Read.val_main_v42 (F := Ideal) (m ((c.tc : Thread nD τ).loc main_arg0)) (m ((c.tc : Thread nD τ).loc main_arg1))
          (m ((c.tc : Thread nD τ).loc main_arg2)) (m ((c.tc : Thread nD τ).loc main_arg3)) (ix2 n j) :=
  (congrFun (stacked m c) (ix3 (1 : Fin 4) n j)).trans
    ((side1 _ _ _ _ _ n j).trans ((lead_apply _ n j).trans (congrFun (Aggregates.agg1_eq m c) (ix2 n j))))
/-- Entry (2, n, j) of the array the region finds is relation 2's aggregate at (n, j). -/
theorem stack_at2 (c : Dev nD) (n : Fin 100000) (j : Fin 64) :
    V m c main_v80 (ix3 (2 : Fin 4) n j)
      = Cert.ReferenceIdeal.Read.val_main_v65 (F := Ideal) (m ((c.tc : Thread nD τ).loc main_arg0)) (m ((c.tc : Thread nD τ).loc main_arg1))
          (m ((c.tc : Thread nD τ).loc main_arg2)) (m ((c.tc : Thread nD τ).loc main_arg3)) (ix2 n j) :=
  (congrFun (stacked m c) (ix3 (2 : Fin 4) n j)).trans
    ((side2 _ _ _ _ _ n j).trans ((lead_apply _ n j).trans (congrFun (Aggregates.agg2_eq m c) (ix2 n j))))
/-- Entry (3, n, j) of the array the region finds is relation 3's aggregate at (n, j). -/
theorem stack_at3 (c : Dev nD) (n : Fin 100000) (j : Fin 64) :
    V m c main_v80 (ix3 (3 : Fin 4) n j)
      = Cert.ReferenceIdeal.Read.val_main_v88 (F := Ideal) (m ((c.tc : Thread nD τ).loc main_arg0)) (m ((c.tc : Thread nD τ).loc main_arg1))
          (m ((c.tc : Thread nD τ).loc main_arg2)) (m ((c.tc : Thread nD τ).loc main_arg3)) (ix2 n j) :=
  (congrFun (stacked m c) (ix3 (3 : Fin 4) n j)).trans
    ((side3 _ _ _ _ _ n j).trans ((lead_apply _ n j).trans (congrFun (Aggregates.agg3_eq m c) (ix2 n j))))

end Cert.KernelIdeal.Stack

end
-- ==== Proof.RefLayer.lean ====
/-
  The reference's result, read at an entry.

  The reference adds, relation by relation, the aggregate's product with that relation's weight matrix onto a zero
  array, then adds the biases' column sums laid as a row. Read at entry (n, o), stage by stage, that is the layer's entry
  (n, o) of ANY [4, 100000, 64] array whose slice r is the reference's aggregate of relation r (the aggregates are never
  opened), of the weights and of the biases. The only arithmetic used is that the f32 word 0 is the number 0 and
  0 + x = x, for the initial value of the reference's bias sum; nothing needs the entries to be finite.
-/
import proofs.«101282_j25907242729954_1_alg».proof.Proof.Gen.ReferenceIdeal.Read
import proofs.«101282_j25907242729954_1_alg».proof.Proof.RelationSum
import Idealize.ShloMosaic.Lib.ValueIdx
import Idealize.ShloMosaic.PureOps.Ideal.Laws

set_option maxRecDepth 16384

noncomputable section

namespace Cert.ReferenceIdeal.Layer

open Idealize.ShloMosaic Idealize.ShloMosaic.ValueIdx
open Cert.ReferenceIdeal Cert.ReferenceIdeal.Read

/-! ## Where each stage reads its operands, at entry (n, o) and contracted lane k -/

theorem lhs_at (n : Fin 100000) (o k : Fin 64) : lidx_main_v22 (ix2 n o) k = ix2 n k :=
  funext fun a => Fin.ext (by match a with | ⟨0, _⟩ => rfl | ⟨1, _⟩ => rfl)

theorem w0_at (n : Fin 100000) (o k : Fin 64) : idx_main_v20 (idx_main_v21 (ridx_main_v22 (ix2 n o) k)) = ix3 (0 : Fin 4) k o :=
  funext fun a => Fin.ext (by
    have hk := k.isLt; have ho := o.isLt
    match a with
    | ⟨0, _⟩ => rfl
    | ⟨1, _⟩ => show (k.val * 64 + o.val) / 64 % 64 = k.val; omega
    | ⟨2, _⟩ => show (k.val * 64 + o.val) % 64 = o.val; omega)
theorem w1_at (n : Fin 100000) (o k : Fin 64) : idx_main_v43 (idx_main_v44 (ridx_main_v45 (ix2 n o) k)) = ix3 (1 : Fin 4) k o :=
  funext fun a => Fin.ext (by
    have hk := k.isLt; have ho := o.isLt
    match a with
    | ⟨0, _⟩ => rfl
    | ⟨1, _⟩ => show (k.val * 64 + o.val) / 64 % 64 = k.val; omega
    | ⟨2, _⟩ => show (k.val * 64 + o.val) % 64 = o.val; omega)
theorem w2_at (n : Fin 100000) (o k : Fin 64) : idx_main_v66 (idx_main_v67 (ridx_main_v68 (ix2 n o) k)) = ix3 (2 : Fin 4) k o :=
  funext fun a => Fin.ext (by
    have hk := k.isLt; have ho := o.isLt
    match a with
    | ⟨0, _⟩ => rfl
    | ⟨1, _⟩ => show (k.val * 64 + o.val) / 64 % 64 = k.val; omega
    | ⟨2, _⟩ => show (k.val * 64 + o.val) % 64 = o.val; omega)
theorem w3_at (n : Fin 100000) (o k : Fin 64) : idx_main_v89 (idx_main_v90 (ridx_main_v91 (ix2 n o) k)) = ix3 (3 : Fin 4) k o :=
  funext fun a => Fin.ext (by
    have hk := k.isLt; have ho := o.isLt
    match a with
    | ⟨0, _⟩ => rfl
    | ⟨1, _⟩ => show (k.val * 64 + o.val) / 64 % 64 = k.val; omega
    | ⟨2, _⟩ => show (k.val * 64 + o.val) % 64 = o.val; omega)

theorem bias_at (n : Fin 100000) (o : Fin 64) (r : Fin 4) : idx_main_v93 (idx_main_v94 (idx_main_v95 (ix2 n o))) r = ix2 r o :=
  funext fun a => Fin.ext (by match a with | ⟨0, _⟩ => rfl | ⟨1, _⟩ => rfl)

/-! ## One relation's product, and the bias row -/

variable (x0 : (⟨S100000x64, .f32⟩ : BufTy).Contents (Elt Ideal)) (x1 x2 : (⟨S4x1600000, .i32⟩ : BufTy).Contents (Elt Ideal))
  (x3 : (⟨S4x1600000, .f32⟩ : BufTy).Contents (Elt Ideal)) (x4 : (⟨S4x64x64, .f32⟩ : BufTy).Contents (Elt Ideal))
  (x5 : (⟨S4x64, .f32⟩ : BufTy).Contents (Elt Ideal))

theorem prod0_at (n : Fin 100000) (o : Fin 64) :
    val_main_v22 (F := Ideal) x0 x1 x2 x3 x4 (ix2 n o) = ∑ k : Fin 64, val_main_v19 (F := Ideal) x0 x1 x2 x3 (ix2 n k) * x4 (ix3 (0 : Fin 4) k o) := by
  rw [val_main_v22_apply]
  refine Finset.sum_congr rfl fun k _ => ?_
  rw [val_main_v21_apply, val_main_v20_apply, lhs_at, w0_at]
theorem prod1_at (n : Fin 100000) (o : Fin 64) :
    val_main_v45 (F := Ideal) x0 x1 x2 x3 x4 (ix2 n o) = ∑ k : Fin 64, val_main_v42 (F := Ideal) x0 x1 x2 x3 (ix2 n k) * x4 (ix3 (1 : Fin 4) k o) := by
  rw [val_main_v45_apply]
  refine Finset.sum_congr rfl fun k _ => ?_
  rw [val_main_v44_apply, val_main_v43_apply, show lidx_main_v45 (ix2 n o) k = ix2 n k from lhs_at n o k, w1_at]
theorem prod2_at (n : Fin 100000) (o : Fin 64) :
    val_main_v68 (F := Ideal) x0 x1 x2 x3 x4 (ix2 n o) = ∑ k : Fin 64, val_main_v65 (F := Ideal) x0 x1 x2 x3 (ix2 n k) * x4 (ix3 (2 : Fin 4) k o) := by
  rw [val_main_v68_apply]
  refine Finset.sum_congr rfl fun k _ => ?_
  rw [val_main_v67_apply, val_main_v66_apply, show lidx_main_v68 (ix2 n o) k = ix2 n k from lhs_at n o k, w2_at]
theorem prod3_at (n : Fin 100000) (o : Fin 64) :
    val_main_v91 (F := Ideal) x0 x1 x2 x3 x4 (ix2 n o) = ∑ k : Fin 64, val_main_v88 (F := Ideal) x0 x1 x2 x3 (ix2 n k) * x4 (ix3 (3 : Fin 4) k o) := by
  rw [val_main_v91_apply]
  refine Finset.sum_congr rfl fun k _ => ?_
  rw [val_main_v90_apply, val_main_v89_apply, show lidx_main_v91 (ix2 n o) k = ix2 n k from lhs_at n o k, w3_at]

/-- The biases' column sums, laid as a row and broadcast down the rows, at (n, o): the sum of column o. -/
theorem biasRow_at (n : Fin 100000) (o : Fin 64) : val_main_v95 (F := Ideal) x5 (ix2 n o) = ∑ r : Fin 4, x5 (ix2 r o) := by
  rw [val_main_v95_apply, val_main_v94_apply, val_main_v93_apply, val_main_cst_11_apply]
  show Ideal.ofBits .f32 0x00000000#32 + _ = _
  rw [Ideal.ofBits_zero_f32, zero_add]
  refine Finset.sum_congr rfl fun r _ => ?_
  rw [bias_at]

/-! ## The result at an entry -/

/-- Entry (n, o) of the reference's result is the layer's entry (n, o) of any array `A` whose slice r is the reference's
    aggregate of relation r. -/
theorem result_at (A : FVec Ideal ⟨3, ![4, 100000, 64]⟩ .f32)
    (h0 : ∀ (n : Fin 100000) (j : Fin 64), A (ix3 (0 : Fin 4) n j) = val_main_v19 (F := Ideal) x0 x1 x2 x3 (ix2 n j))
    (h1 : ∀ (n : Fin 100000) (j : Fin 64), A (ix3 (1 : Fin 4) n j) = val_main_v42 (F := Ideal) x0 x1 x2 x3 (ix2 n j))
    (h2 : ∀ (n : Fin 100000) (j : Fin 64), A (ix3 (2 : Fin 4) n j) = val_main_v65 (F := Ideal) x0 x1 x2 x3 (ix2 n j))
    (h3 : ∀ (n : Fin 100000) (j : Fin 64), A (ix3 (3 : Fin 4) n j) = val_main_v88 (F := Ideal) x0 x1 x2 x3 (ix2 n j))
    (n : Fin 100000) (o : Fin 64) :
    val_main_v96 (F := Ideal) x0 x1 x2 x3 x4 x5 (ix2 n o) = RelationSum.entry (N := 100000) A x4 x5 n o := by
  unfold RelationSum.entry RelationSum.prod
  simp only [h0, h1, h2, h3]
  rw [val_main_v96_apply, val_main_v92_apply, val_main_v69_apply, val_main_v46_apply, val_main_v23_apply,
    val_main_v0_apply, val_main_cst_apply, prod0_at, prod1_at, prod2_at, prod3_at, biasRow_at]
  rfl

/-- The reference's result array is the layer of any such `A`. -/
theorem result_eq (A : FVec Ideal ⟨3, ![4, 100000, 64]⟩ .f32)
    (h0 : ∀ (n : Fin 100000) (j : Fin 64), A (ix3 (0 : Fin 4) n j) = val_main_v19 (F := Ideal) x0 x1 x2 x3 (ix2 n j))
    (h1 : ∀ (n : Fin 100000) (j : Fin 64), A (ix3 (1 : Fin 4) n j) = val_main_v42 (F := Ideal) x0 x1 x2 x3 (ix2 n j))
    (h2 : ∀ (n : Fin 100000) (j : Fin 64), A (ix3 (2 : Fin 4) n j) = val_main_v65 (F := Ideal) x0 x1 x2 x3 (ix2 n j))
    (h3 : ∀ (n : Fin 100000) (j : Fin 64), A (ix3 (3 : Fin 4) n j) = val_main_v88 (F := Ideal) x0 x1 x2 x3 (ix2 n j)) :
    val_main_v96 (F := Ideal) x0 x1 x2 x3 x4 x5 = RelationSum.layer (N := 100000) A x4 x5 := by
  funext i
  obtain ⟨n, o, rfl⟩ : ∃ (n : Fin 100000) (o : Fin 64), i = ix2 n o := ⟨i 0, i 1, eq_ix2 i⟩
  exact result_at x0 x1 x2 x3 x4 x5 A h0 h1 h2 h3 n o

end Cert.ReferenceIdeal.Layer

end
-- ==== Proof.lean ====
/-
  The kernel and its reference compute the same layer.

  For each of four relations both programs aggregate the scaled source rows of the node features onto the destination
  rows — by the same gather, product and scatter-add, line for line — and both then return
      Σ_r aggregate_r · W_r + Σ_r bias_r ,
  the four products added in the same order onto the same zero and the biases' column sums added last. The kernel lays
  the four aggregates side by side and computes 5000 rows of the result per grid point (entry (n, o) uses row n of the
  aggregates only); the reference adds whole arrays. On the extended reals the two results are one function of the
  arguments, entry by entry (`RelationSum.layer`): narrowing to bf16 is the identity there, the matrix unit into a zero
  accumulator and the host's product are the same sum, and the only law used is 0 + x = x for the initial value of the
  reference's bias sum — so the precondition (finite inputs) is never opened.

  The three frames: the two kernel programs run the host lines and then the pipelined region, whose body at every grid
  point loads its blocks and stores the output block (modules `…Entry`, `…Point`, `…Region`, one set per program); the
  reference is host lines only and its run is the generated one. The idealized kernel is the kernel's own text read on
  the extended reals, so nothing is owed for that conjunct.
-/
import proofs.«101282_j25907242729954_1_alg».proof.Defs
import proofs.«101282_j25907242729954_1_alg».proof.Proof.Gen.Kernel
import proofs.«101282_j25907242729954_1_alg».proof.Proof.Gen.KernelIdeal
import proofs.«101282_j25907242729954_1_alg».proof.Proof.Gen.ReferenceIdeal
import proofs.«101282_j25907242729954_1_alg».proof.Proof.Gen.ReferenceIdeal.Run
import proofs.«101282_j25907242729954_1_alg».proof.Proof.Gen.ReferenceIdeal.Read
import proofs.«101282_j25907242729954_1_alg».proof.Proof.Gen.Pre_finite_inputs
import proofs.«101282_j25907242729954_1_alg».proof.Proof.BitsRegion
import proofs.«101282_j25907242729954_1_alg».proof.Proof.IdealRegion
import proofs.«101282_j25907242729954_1_alg».proof.Proof.IdealArray
import proofs.«101282_j25907242729954_1_alg».proof.Proof.IdealStack
import proofs.«101282_j25907242729954_1_alg».proof.Proof.RefLayer
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_kernel : Cert.frame_Kernel := fun m ρ _ => Cert.Kernel.Region.frame m ρ

/-- So does the kernel read on the extended reals. -/
theorem frame_kernelIdeal : Cert.frame_KernelIdeal := fun m ρ _ => Cert.KernelIdeal.Region.frame m ρ

/-- The reference is host lines only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text: no rewrite was applied. -/
theorem preserves : Cert.preserves_Kernel_KernelIdeal := trivial

/-- From memories that agree on the arguments both programs end with the layer of: the aggregate array the kernel's
    region is handed, the weights and the biases. The kernel's result is that by its run; the reference's is that
    because slice r of the aggregate array is the reference's own aggregate of relation r. -/
theorem algebraic : Cert.algebraic_KernelIdeal_ReferenceIdeal := by
  intro m ρ m' ρ' _ hagree
  refine ⟨_, Cert.KernelIdeal.ArrayValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v96_eq, (hagree c).1, (hagree c).2.1, (hagree c).2.2.1, (hagree c).2.2.2.1,
    (hagree c).2.2.2.2.1, (hagree c).2.2.2.2.2]
  exact Cert.ReferenceIdeal.Layer.result_eq _ _ _ _ _ _ (Cert.KernelIdeal.Entry.V m c Cert.KernelIdeal.main_v80)
    (Cert.KernelIdeal.Stack.stack_at0 m c) (Cert.KernelIdeal.Stack.stack_at1 m c)
    (Cert.KernelIdeal.Stack.stack_at2 m c) (Cert.KernelIdeal.Stack.stack_at3 m c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
